-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x4096x8192 : Shape := ⟨3, ![8, 4096, 8192]⟩
abbrev S8x4096x4096 : Shape := ⟨3, ![8, 4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x4096x8192 : S_.BroadcastsInDim S8x4096x8192 (![] : Fin 0 → Fin S8x4096x8192.rank)
  reducesTo_S8x4096x8192_S_d0_1_2 : S8x4096x8192.ReducesTo [0, 1, 2] S_
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S16384x4096 .f32) (main_arg1 : FVec F S8x4096x8192 .f32) (main_arg2 : FVec F S8x4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8x4096x8192 .f32 := Host.absf main_arg1
  let main_cst_0 : FVec F S_ .f32 := constant S_ .f32 0x7F800000#32
  let main_v5 : FVec F S8x4096x8192 .f32 := broadcastInDim S8x4096x8192 ![] bcast_S_S8x4096x8192 main_cst_0
  let main_v6 : IVec S8x4096x8192 1 := cmpf .olt main_v4 main_v5
  let main_c_1 : IVec S_ 1 := constantI S_ 1 1#1
  let main_v7 : IVec S_ 1 := (fun x v => Host.reduce IntOp.andi x v reducesTo_S8x4096x8192_S_d0_1_2 h_S_) main_v6 main_c_1
  let main_v8 : IVec S_ 1 := andi main_v3 main_v7
  let main_v9 : FVec F S8x4096x4096 .f32 := Host.absf main_arg2
  let main_cst_2 : FVec F S_ .f32 := constant S_ .f32 0x7F800000#32
  let main_v10 : FVec F S8x4096x4096 .f32 := broadcastInDim S8x4096x4096 ![] bcast_S_S8x4096x4096 main_cst_2
  let main_v11 : IVec S8x4096x4096 1 := cmpf .olt main_v9 main_v10
  let main_c_3 : IVec S_ 1 := constantI S_ 1 1#1
  let main_v12 : IVec S_ 1 := (fun x v => Host.reduce IntOp.andi x v reducesTo_S8x4096x4096_S_d0_1_2 h_S_) main_v11 main_c_3
  let main_v13 : IVec S_ 1 := andi main_v8 main_v12
  main_v13
-- ==== Kernel.lean ====
abbrev S16384x4096 : Shape := ⟨2, ![16384, 4096]⟩
abbrev S8x4096x8192 : Shape := ⟨3, ![8, 4096, 8192]⟩
abbrev S8x4096x4096 : Shape := ⟨3, ![8, 4096, 4096]⟩
abbrev S8x2048x4096 : Shape := ⟨3, ![8, 2048, 4096]⟩
abbrev S1x512x4096 : Shape := ⟨3, ![1, 512, 4096]⟩
abbrev S1x4096x256 : Shape := ⟨3, ![1, 4096, 256]⟩
abbrev S1x256x4096 : Shape := ⟨3, ![1, 256, 4096]⟩
abbrev S512x4096 : Shape := ⟨2, ![512, 4096]⟩
abbrev S4096x256 : Shape := ⟨2, ![4096, 256]⟩
abbrev S512x256 : Shape := ⟨2, ![512, 256]⟩
abbrev S256x4096 : Shape := ⟨2, ![256, 4096]⟩

abbrev nBuf : Space → Nat
  | .hbm => 9
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S8x4096x8192, .f32⟩
  | .hbm, ⟨2, _⟩ => ⟨S8x4096x4096, .f32⟩
  | .hbm, ⟨3, _⟩ => ⟨S16384x4096, .bf16⟩
  | .hbm, ⟨4, _⟩ => ⟨S8x2048x4096, .bf16⟩
  | .hbm, ⟨5, _⟩ => ⟨S8x4096x8192, .bf16⟩
  | .hbm, ⟨6, _⟩ => ⟨S8x4096x4096, .bf16⟩
  | .hbm, ⟨7, _⟩ => ⟨S8x2048x4096, .f32⟩
  | .hbm, ⟨8, _⟩ => ⟨S16384x4096, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x512x4096, .f32⟩
  | .local _ .vmem, ⟨9, _⟩ => ⟨S1x512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S16384x4096_S8x2048x4096 : S16384x4096.ShapeCasts S8x2048x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S8x2048x4096_S16384x4096 : S8x2048x4096.ShapeCasts S16384x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x2048x4096.size a
  hwx0_0 : ∀ i : grid0.Coords, EltTy.bits .bf16 = 32 ∨ (Rect.block (s := S8x2048x4096) S1x512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x8192.size a
  hwx0_1 : ∀ i : grid0.Coords, EltTy.bits .bf16 = 32 ∨ (Rect.block (s := S8x4096x8192) S1x4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S8x4096x8192.size a
  hwx0_2 : ∀ i : grid0.Coords, EltTy.bits .bf16 = 32 ∨ (Rect.block (s := S8x4096x8192) S1x4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x4096x4096.size a
  hwx0_3 : ∀ i : grid0.Coords, EltTy.bits .bf16 = 32 ∨ (Rect.block (s := S8x4096x4096) S1x256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x4096.size a ≤ S8x2048x4096.size a
  hwx0_4 : ∀ i : grid0.Coords, EltTy.bits .f32 = 32 ∨ (Rect.block (s := S8x2048x4096) S1x512x4096.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S8x4096x8192 : Shape := ⟨3, ![8, 4096, 8192]⟩
abbrev S8x4096x4096 : Shape := ⟨3, ![8, 4096, 4096]⟩
abbrev S8x2048x4096 : Shape := ⟨3, ![8, 2048, 4096]⟩
abbrev S8x2048x8192 : Shape := ⟨3, ![8, 2048, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x4096x8192, .f32⟩
  | .hbm, ⟨2, _⟩ => ⟨S8x4096x4096, .f32⟩
  | .hbm, ⟨3, _⟩ => ⟨S8x2048x4096, .f32⟩
  | .hbm, ⟨4, _⟩ => ⟨S8x2048x8192, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S8x2048x4096, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S_, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S16384x4096_S8x2048x4096 : S16384x4096.ShapeCasts S8x2048x4096
  slices_S8x2048x8192_S8x2048x4096_0_0_0 : S8x2048x8192.Slices ![0, 0, 0] S8x2048x4096
  slices_S8x2048x8192_S8x2048x4096_0_0_4096 : S8x2048x8192.Slices ![0, 0, 4096] S8x2048x4096
  bcast_S_S8x2048x4096 : S_.BroadcastsInDim S8x2048x4096 (![] : Fin 0 → Fin S8x2048x4096.rank)
  shapeCasts_S8x2048x4096_S16384x4096 : S8x2048x4096.ShapeCasts S16384x4096
  dot_S8x2048x4096_S8x4096x8192_S8x2048x8192_2_1_1_2_0_0_wf : DotDims.WF S8x2048x4096 S8x4096x8192 S8x2048x8192 [2] [1] [1] [2] [0] [0]
  dot_S8x2048x4096_S8x4096x4096_S8x2048x4096_2_1_1_2_0_0_wf : DotDims.WF S8x2048x4096 S8x4096x4096 S8x2048x4096 [2] [1] [1] [2] [0] [0]

variable [Facts₀]

def dot_S8x2048x4096_S8x4096x8192_S8x2048x8192_2_1_1_2_0_0 : DotDims S8x2048x4096 S8x4096x8192 S8x2048x8192 where
  lhsContracting := [2]
  rhsContracting := [1]
  lhsNonContracting := [1]
  rhsNonContracting := [2]
  lhsBatch := [0]
  rhsBatch := [0]
  wf := dot_S8x2048x4096_S8x4096x8192_S8x2048x8192_2_1_1_2_0_0_wf
def dot_S8x2048x4096_S8x4096x4096_S8x2048x4096_2_1_1_2_0_0 : DotDims S8x2048x4096 S8x4096x4096 S8x2048x4096 where
  lhsContracting := [2]
  rhsContracting := [1]
  lhsNonContracting := [1]
  rhsNonContracting := [2]
  lhsBatch := [0]
  rhsBatch := [0]
  wf := dot_S8x2048x4096_S8x4096x4096_S8x2048x4096_2_1_1_2_0_0_wf

class Facts : Prop extends Facts₀ where

variable [Facts]
-- ==== Proof.FrameBits.Blocks.lean ====
/-
  The five windows of the expert feed-forward kernel at the moment the region is entered.
  The grid is (expert, token tile, reduction tile) = 8 x 4 x 16, the reduction tile fastest, so point t has
  reduction step t mod 16. Window 0 is the token tile of x, windows 1 and 2 are the gate and the up column tiles
  of ONE array (the weights gate_up), window 3 the down row tile, window 4 the output token tile, which stays in
  its staging buffer across the 16 reduction steps and is written back at the last.
-/
import proofs.«122866_j90031104459227_2_alg».proof.Proof.Gen.Kernel.Launch
import proofs.«122866_j90031104459227_2_alg».proof.Proof.Gen.Kernel.Skeleton
import proofs.«122866_j90031104459227_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or
    not: an unfetched point has the same block index as the one before it. -/
theorem before_in_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body's one branch: "this is the first reduction step", from the grid coordinates. -/
abbrev firstStep (i : grid0.Coords) : Prop :=
  (Scalar.cmpi .ne (Scalar.extui (Scalar.cmpi .eq (BitVec.ofNat 32 (i 2).val) 0#32)) 0#32) = 1#1
/-- It holds exactly at the points whose reduction step is 0. -/
theorem firstStep_iff : ∀ t : Fin cfg0.N, firstStep (grid0.coords t) ↔ t.val % 16 = 0 :=
  (by decide +kernel : ∀ t : Fin grid0.N, firstStep (grid0.coords t) ↔ t.val % 16 = 0)

/-- One staging buffer of the output window, through which its contents are stated. -/
abbrev VO : View sig .tc .vmem S1x512x4096 .f32 := (Memref.whole cc0_stg4_0 : Memref sig .tc .vmem S1x512x4096 .f32).view
/-- Each window's current staging memref at point `t`, as the pipeline passes it to the body, and its wholeness. -/
abbrev ms0 (t : Fin cfg0.N) : Memref sig .tc .vmem S1x512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x4096 .f32 := win0_4.stage (cfg0.slots t 4)
abbrev hs4 (t : Fin cfg0.N) : (ms4 t).IsWhole := hstage0_4 ((cfg0.slots t 4).cast nbuf0_4)

end Cert.Kernel.Hand

end
-- ==== Proof.FrameBits.RunFirst.lean ====
/-
  The kernel body at a point whose reduction step is the first: the output tile's staging buffer, holding anything,
  is overwritten with zeros, and then the step's contribution is added to what was just stored.
-/
import proofs.«122866_j90031104459227_2_alg».proof.Proof.FrameBits.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The pieces the body's two stores leave in the output tile's staging memref at a first reduction step, with the
    body's run on whole staging memrefs: the four input tiles at their contents come back as they were. -/
noncomputable def runFirst (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : firstStep i)
    (x0 : Vec F S1x512x4096 .bf16) (x1 : Vec F S1x4096x256 .bf16) (x2 : Vec F S1x4096x256 .bf16) (x3 : Vec F S1x256x4096 .bf16) :
    { L : List (View.Piece (Elt F) S1x512x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__moe_kernel i arg3 harg3 arg4 harg4 arg5 harg5 arg6 harg6 arg7 harg7) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.FrameBits.RunLater.lean ====
/-
  The kernel body at a point whose reduction step is not the first: the output tile's staging buffer holds the sum
  of the earlier steps' contributions, and this step's contribution is added to it.
-/
import proofs.«122866_j90031104459227_2_alg».proof.Proof.FrameBits.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The piece the body's one store leaves in the output tile's staging memref at a later reduction step, the
    buffer entering at its running contents `acc`, with the body's run on whole staging memrefs. -/
noncomputable def runLater (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : ¬firstStep i)
    (x0 : Vec F S1x512x4096 .bf16) (x1 : Vec F S1x4096x256 .bf16) (x2 : Vec F S1x4096x256 .bf16) (x3 : Vec F S1x256x4096 .bf16) (acc : Vec F S1x512x4096 .f32) :
    { L : List (View.Piece (Elt F) S1x512x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__moe_kernel i arg3 harg3 arg4 harg4 arg5 harg5 arg6 harg6 arg7 harg7) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.FrameBits.Data.lean ====
/-
  What the output token tile holds in its staging buffer after each grid point, and the pipeline's proof data.
  At a point whose reduction step is the first the buffer ends at that step's contribution added to zero; at a later
  step, at the step's contribution added to what the point before left: the buffer is not written back in between
  (only the last reduction step writes it back), so a point finds there what its predecessor stored.
  The two weight windows read ONE array (the gate half and the up half of the fused weights): each holds it at one
  half of the full share.
-/
import proofs.«122866_j90031104459227_2_alg».proof.Proof.FrameBits.RunLater
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two stores of a first reduction step tile the output tile, so they cover it. -/
theorem coverFirst (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : firstStep i)
    (x0 : Vec F S1x512x4096 .bf16) (x1 : Vec F S1x4096x256 .bf16) (x2 : Vec F S1x4096x256 .bf16) (x3 : Vec F S1x256x4096 .bf16) (y : S1x512x4096.Idx) :
    ∃ pc ∈ (runFirst c i arg3 harg3 arg4 harg4 arg5 harg5 arg6 harg6 arg7 harg7 hc x0 x1 x2 x3).1, y ∈ pc.1.set :=
  View.cover_of_tiledL (runFirst c i arg3 harg3 arg4 harg4 arg5 harg5 arg6 harg6 arg7 harg7 hc x0 x1 x2 x3).1 S1x512x4096.size (by sl_kernel_rfl) y

/-- What a first reduction step leaves in the output tile's buffer: its pieces read back. -/
def outFirst (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : firstStep i)
    (x0 : Vec F S1x512x4096 .bf16) (x1 : Vec F S1x4096x256 .bf16) (x2 : Vec F S1x4096x256 .bf16) (x3 : Vec F S1x256x4096 .bf16) : Vec F S1x512x4096 .f32 :=
  VO.read (Elt F) (VO.writes (Elt F) VO.junk (runFirst c i arg3 harg3 arg4 harg4 arg5 harg5 arg6 harg6 arg7 harg7 hc x0 x1 x2 x3).1)

/-- The one store of a later reduction step covers the output tile. -/
theorem coverLater (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : ¬firstStep i)
    (x0 : Vec F S1x512x4096 .bf16) (x1 : Vec F S1x4096x256 .bf16) (x2 : Vec F S1x4096x256 .bf16) (x3 : Vec F S1x256x4096 .bf16) (acc : Vec F S1x512x4096 .f32) (y : S1x512x4096.Idx) :
    ∃ pc ∈ (runLater c i arg3 harg3 arg4 harg4 arg5 harg5 arg6 harg6 arg7 harg7 hc x0 x1 x2 x3 acc).1, y ∈ pc.1.set :=
  View.cover_of_tiledL (runLater c i arg3 harg3 arg4 harg4 arg5 harg5 arg6 harg6 arg7 harg7 hc x0 x1 x2 x3 acc).1 S1x512x4096.size (by sl_kernel_rfl) y

/-- What a later reduction step leaves in the output tile's buffer, entered at `acc`. -/
def outLater (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : ¬firstStep i)
    (x0 : Vec F S1x512x4096 .bf16) (x1 : Vec F S1x4096x256 .bf16) (x2 : Vec F S1x4096x256 .bf16) (x3 : Vec F S1x256x4096 .bf16) (acc : Vec F S1x512x4096 .f32) : Vec F S1x512x4096 .f32 :=
  VO.read (Elt F) (VO.writes (Elt F) VO.junk (runLater c i arg3 harg3 arg4 harg4 arg5 harg5 arg6 harg6 arg7 harg7 hc x0 x1 x2 x3 acc).1)

/-- THE ACCUMULATION: the output tile's staging buffer after the body at position `n` of the grid. -/
def outsAt (c : Dev nD) : (n : ℕ) → n < cfg0.N → Vec F S1x512x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((firstStep_iff ⟨0, hn⟩).mpr (Nat.zero_mod _)) (iblk V c 0 ⟨0, hn⟩) (iblk V c 1 ⟨0, hn⟩) (iblk V c 2 ⟨0, hn⟩) (iblk V c 3 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((firstStep_iff ⟨n + 1, hn⟩).mpr h0) (iblk V c 0 ⟨n + 1, hn⟩) (iblk V c 1 ⟨n + 1, hn⟩) (iblk V c 2 ⟨n + 1, hn⟩) (iblk V c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((firstStep_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn))

theorem outsAt_first (c : Dev nD) (t : Fin cfg0.N) (h0 : t.val % 16 = 0) :
    outsAt V c t.val t.isLt = outFirst c (grid0.coords t) (ms0 t) (hs0 t) (ms1 t) (hs1 t) (ms2 t) (hs2 t) (ms3 t) (hs3 t) (ms4 t) (hs4 t) ((firstStep_iff t).mpr h0) (iblk V c 0 t) (iblk V c 1 t) (iblk V c 2 t) (iblk V c 3 t) := by
  obtain ⟨n, hn⟩ := t
  cases n with
  | zero => exact rfl
  | succ n => exact (dif_pos h0).trans rfl

theorem outsAt_later (c : Dev nD) (t : Fin cfg0.N) (h0 : ¬t.val % 16 = 0) :
    outsAt V c t.val t.isLt = outLater c (grid0.coords t) (ms0 t) (hs0 t) (ms1 t) (hs1 t) (ms2 t) (hs2 t) (ms3 t) (hs3 t) (ms4 t) (hs4 t) (fun h => h0 ((firstStep_iff t).mp h)) (iblk V c 0 t) (iblk V c 1 t) (iblk V c 2 t) (iblk V c 3 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the pipeline on core `c`: the arrays as the region finds them; after the body each input
    tile's buffer at its block and the output tile's at the accumulation; nothing owed; the fused weights held by the
    gate window and the up window at the two halves of the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt V c t.val t.isLt
  Φ _ := Pipeline.ΦA spec0 c
  q w := match w with
    | ⟨1, _⟩ => fullShare.left
    | ⟨2, _⟩ => fullShare.right
    | _ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outsAt V c t.val t.isLt := by dsimp only [dat]

theorem before_0 (c : Dev nD) (t : Fin cfg0.N) (d) : (dat V c).before 0 t d = iblk V c 0 t :=
  before_in_0 V (dat V c) (A_eq V c 0) (after_0 V c) t d
theorem before_1 (c : Dev nD) (t : Fin cfg0.N) (d) : (dat V c).before 1 t d = iblk V c 1 t :=
  before_in_1 V (dat V c) (A_eq V c 1) (after_1 V c) t d
theorem before_2 (c : Dev nD) (t : Fin cfg0.N) (d) : (dat V c).before 2 t d = iblk V c 2 t :=
  before_in_2 V (dat V c) (A_eq V c 2) (after_2 V c) t d
theorem before_3 (c : Dev nD) (t : Fin cfg0.N) (d) : (dat V c).before 3 t d = iblk V c 3 t :=
  before_in_3 V (dat V c) (A_eq V c 3) (after_3 V c) t d

/-- At a later reduction step the output tile's buffer holds what the body left at the point before: the point
    is not the first of the grid and the buffer was not written back in between. -/
theorem before_4_later (c : Dev nD) (t : Fin cfg0.N) (h0 : ¬t.val % 16 = 0) (d) :
    (dat V c).before 4 t d = outsAt V c (t.val - 1) (Nat.lt_of_le_of_lt (Nat.sub_le _ _) t.isLt) := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dat]

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the inputs' buffers hold their blocks; the reduction step says which case the point is
    in; at a later step the output buffer holds what the point before left; so the case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  have hN : t.val < 512 := lt_of_lt_of_eq t.isLt (show cfg0.N = 512 from N_0)
  by_cases h0 : t.val % 16 = 0
  · rw [outsAt_first V c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((firstStep_iff t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_later V c t h0]
    simp only [before_4_later V c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((firstStep_iff t).mp h)) (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.FrameBits.Region.lean ====
/-
  The region as one segment of the program: how the core's unscoped buffers become the pipeline's arrays when the
  region is entered and how they are put back when it is left.
  Four distinct arrays stand behind the five windows: the token tiles' array, the fused weights (read through the gate
  window AND the up window), the down weights and the result. On entry the fused weights' buffer, held whole at the
  full share, is split into the two halves of that share, one per window; on exit the two halves, which still hold
  the same contents because neither window writes, are joined again. The result's array leaves at what the sixteen
  write-backs folded; every other buffer leaves as it entered.
-/
import proofs.«122866_j90031104459227_2_alg».proof.Proof.FrameBits.Data
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-- The core's unscoped buffers are the buffers behind the windows' arrays and the rest. -/
theorem unscoped_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop((Pipeline.arrBufs (Ix := Unit) (Name := ℕ) (U := UR sig nD τ) (Lvl := ℕ) spec0 c V' : sProp 𝕄) ∗ Pipeline.unscopedRest spec0 c V') := by
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- The four distinct buffers behind the windows' arrays, one by one. -/
theorem arrBufs_list (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v1) ↦{fullShare} V' main_v1) ∗ (((c : Thread nD τ).loc main_v2) ↦{fullShare} V' main_v2)
          ∗ (((c : Thread nD τ).loc main_v3) ↦{fullShare} V' main_v3) ∗ (((c : Thread nD τ).loc main_v4) ↦{fullShare} V' main_v4)) := by
  unfold Pipeline.arrBufs
  exact bigSep_eq_bigSepL_of_eq [main_v1, main_v2, main_v3, main_v4] (by decide) (by decide) _

/-- A window's array is a whole buffer: its points-to is over every index. -/
theorem arr_pt0 (c : Dev nD) (q : PosShare TreeShare) (g : Buf (Elt F) ((cfg0.win 0).arr.view.loc (c : Thread nD τ))) :
    (((cfg0.win 0).arr.view.loc (c : Thread nD τ)) ↦[(cfg0.win 0).arr.view.set]{q} g : sProp 𝕄) = (((c : Thread nD τ).loc main_v1) ↦{q} g) := by
  rw [show (cfg0.win 0).arr.view.set = Finset.univ from (arr_whole0 0).set_eq_univ]
theorem arr_pt1 (c : Dev nD) (q : PosShare TreeShare) (g : Buf (Elt F) ((cfg0.win 1).arr.view.loc (c : Thread nD τ))) :
    (((cfg0.win 1).arr.view.loc (c : Thread nD τ)) ↦[(cfg0.win 1).arr.view.set]{q} g : sProp 𝕄) = (((c : Thread nD τ).loc main_v2) ↦{q} g) := by
  rw [show (cfg0.win 1).arr.view.set = Finset.univ from (arr_whole0 1).set_eq_univ]
theorem arr_pt2 (c : Dev nD) (q : PosShare TreeShare) (g : Buf (Elt F) ((cfg0.win 2).arr.view.loc (c : Thread nD τ))) :
    (((cfg0.win 2).arr.view.loc (c : Thread nD τ)) ↦[(cfg0.win 2).arr.view.set]{q} g : sProp 𝕄) = (((c : Thread nD τ).loc main_v2) ↦{q} g) := by
  rw [show (cfg0.win 2).arr.view.set = Finset.univ from (arr_whole0 2).set_eq_univ]
theorem arr_pt3 (c : Dev nD) (q : PosShare TreeShare) (g : Buf (Elt F) ((cfg0.win 3).arr.view.loc (c : Thread nD τ))) :
    (((cfg0.win 3).arr.view.loc (c : Thread nD τ)) ↦[(cfg0.win 3).arr.view.set]{q} g : sProp 𝕄) = (((c : Thread nD τ).loc main_v3) ↦{q} g) := by
  rw [show (cfg0.win 3).arr.view.set = Finset.univ from (arr_whole0 3).set_eq_univ]
theorem arr_pt4 (c : Dev nD) (q : PosShare TreeShare) (g : Buf (Elt F) ((cfg0.win 4).arr.view.loc (c : Thread nD τ))) :
    (((cfg0.win 4).arr.view.loc (c : Thread nD τ)) ↦[(cfg0.win 4).arr.view.set]{q} g : sProp 𝕄) = (((c : Thread nD τ).loc main_v4) ↦{q} g) := by
  rw [show (cfg0.win 4).arr.view.set = Finset.univ from (arr_whole0 4).set_eq_univ]

/-- The share each window holds its array at. -/
theorem share_0 (c : Dev nD) : (dat V c).share 0 = fullShare := by
  unfold Dat.share; split
  · next h => exact absurd h (by decide)
  · rfl
theorem share_1 (c : Dev nD) : (dat V c).share 1 = fullShare.left := by
  unfold Dat.share; split
  · next h => exact absurd h (by decide)
  · rfl
theorem share_2 (c : Dev nD) : (dat V c).share 2 = fullShare.right := by
  unfold Dat.share; split
  · next h => exact absurd h (by decide)
  · rfl
theorem share_3 (c : Dev nD) : (dat V c).share 3 = fullShare := by
  unfold Dat.share; split
  · next h => exact absurd h (by decide)
  · rfl
theorem share_4 (c : Dev nD) : (dat V c).share 4 = fullShare := by
  unfold Dat.share; split
  · rfl
  · next h => exact absurd rfl h

/-- The five windows' arrays, one by one, each at the share its window holds. -/
theorem arrays_list (c : Dev nD) (G : (w : Fin cfg0.W) → Buf (Elt F) ((cfg0.win w).arr.view.loc (c : Thread nD τ))) :
    ((dat V c).arrays G : sProp 𝕄)
      = iprop((((c : Thread nD τ).loc main_v1) ↦{fullShare} G 0) ∗ (((c : Thread nD τ).loc main_v2) ↦{fullShare.left} G 1) ∗ (((c : Thread nD τ).loc main_v2) ↦{fullShare.right} G 2)
          ∗ (((c : Thread nD τ).loc main_v3) ↦{fullShare} G 3) ∗ (((c : Thread nD τ).loc main_v4) ↦{fullShare} G 4)) := by
  unfold Dat.arrays
  rw [bigSep_W0, share_0 V c, share_1 V c, share_2 V c, share_3 V c, share_4 V c,
    arr_pt0 c, arr_pt1 c, arr_pt2 c, arr_pt3 c, arr_pt4 c]

end Arrays

end Cert.Kernel.Hand

end
-- ==== Proof.FrameBits.EntryExit.lean ====
/-
  Entering and leaving the region. On entry the buffer of the fused weights, whole at the full share, is split into
  the two halves of that share for the gate window and the up window. On exit the halves are joined again: both
  windows only read, so both still hold the contents the region found. The result's array leaves at what the
  write-backs folded into it; every other buffer leaves as it entered.
-/
import proofs.«122866_j90031104459227_2_alg».proof.Proof.FrameBits.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY: the core's unscoped buffers at the region-entry contents are the windows' arrays at those contents, each
    at its window's share, and the rest. -/
theorem entry_arrays (c : Dev nD) :
    (unscopedBufs (Ix := Unit) (Name := ℕ) (U := UR sig nD τ) (Lvl := ℕ) c (V c) : sProp 𝕄)
      ⊢ iprop((dat V c).arrays (dat V c).A ∗ Pipeline.unscopedRest spec0 c (V c)) := by
  rw [unscoped_split c (V c), arrBufs_list c (V c), arrays_list V c]
  iintro ⟨⟨H1, H2, H3, H4⟩, Hr⟩
  ihave H2' := (pointsTo_share (PosShare.mem_left_op_right fullShare)).1 $$ H2
  icases H2' with ⟨H2l, H2r⟩
  isplitr [Hr]
  · isplitl [H1]; · iexact H1
    isplitl [H2l]; · iexact H2l
    isplitl [H2r]; · iexact H2r
    isplitl [H3]; · iexact H3
    iexact H4
  iexact Hr

/-- EXIT: the windows' arrays as the pipeline leaves them and the rest are the core's unscoped buffers at any
    contents that agree with the entry contents everywhere but at the result, and hold there what the write-backs
    folded. An input window's array ends as it began, so the two halves of the fused weights join. -/
theorem exit_arrays (c : Dev nD) (V' : (b : Ref sig .tc) → Buf (Elt F) ((c : Thread nD τ).loc b))
    (h1 : V' main_v1 = V c main_v1) (h2 : V' main_v2 = V c main_v2) (h3 : V' main_v3 = V c main_v3)
    (h4 : V' main_v4 = (dat V c).arrAt 4 cfg0.N)
    (hrest : ∀ b, b ∉ Finset.univ.image (Pipeline.arrRef spec0) → V' b = V c b) :
    iprop((dat V c).arrays ((dat V c).arrAt · cfg0.N) ∗ Pipeline.unscopedRest spec0 c (V c))
      ⊢ (unscopedBufs (Ix := Unit) (Name := ℕ) (U := UR sig nD τ) (Lvl := ℕ) c V' : sProp 𝕄) := by
  have e0 : (dat V c).arrAt 0 cfg0.N = V c main_v1 := ((dat V c).arrAt_in 0 rfl _).trans (A_eq V c 0)
  have e1 : (dat V c).arrAt 1 cfg0.N = V c main_v2 := ((dat V c).arrAt_in 1 rfl _).trans (A_eq V c 1)
  have e2 : (dat V c).arrAt 2 cfg0.N = V c main_v2 := ((dat V c).arrAt_in 2 rfl _).trans (A_eq V c 2)
  have e3 : (dat V c).arrAt 3 cfg0.N = V c main_v3 := ((dat V c).arrAt_in 3 rfl _).trans (A_eq V c 3)
  have hr : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by rw [hrest b (Finset.mem_sdiff.mp hb).2]
  rw [unscoped_split c V', hr, arrBufs_list c V', arrays_list V c, h1, h2, h3, h4, e0, e1, e2, e3]
  iintro ⟨⟨H1, H2l, H2r, H3, H4⟩, Hr⟩
  isplitr [Hr]
  · isplitl [H1]; · iexact H1
    isplitl [H2l H2r]
    · iapply (pointsTo_share (PosShare.mem_left_op_right fullShare)).2
      isplitl [H2l]; · iexact H2l
      iexact H2r
    isplitl [H3]; · iexact H3
    iexact H4
  iexact Hr

end Cert.Kernel.Hand

end
-- ==== Proof.FrameBits.Run.lean ====
/-
  The whole program as three segments: the host operations before the region (the three arguments rounded to
  bf16, the tokens regrouped per expert), the region, and the host operation after it (the result regrouped as one
  token matrix). The buffers' contents are followed through the segments: as launched; after the first host
  operations; after the region, where only the result's array has changed; after the last host operation.
  Every weakly fair execution terminates with every unscoped buffer at the last of these.
-/
import proofs.«122866_j90031104459227_2_alg».proof.Proof.FrameBits.EntryExit
import Idealize.ShloMosaic.Lib.Pipeline.Regions
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the result's array at what the write-backs folded, every other buffer as entered. -/
def W2 (c : Dev nD) : Valuation τ sig (Elt F) :=
  Function.update (W1 m ρ c) (Proc.devRef .tc main_v4) ((dat (V1 m ρ) c).arrAt 4 cfg0.N)
theorem W2_result (c : Dev nD) : W2 m ρ c (Proc.devRef .tc main_v4) = (dat (V1 m ρ) c).arrAt 4 cfg0.N := by
  unfold W2; exact Function.update_self ..
theorem W2_of_ne (c : Dev nD) (b : Ref sig .tc) (hb : b ≠ main_v4) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b
/-- After the host operation that follows the region. -/
abbrev W3 : Dev nD → Valuation τ sig (Elt F) := fun c => StableHlo.after hostOps1 (W2 m ρ c)

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
  | ⟨_ + 1, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE REGION over the thread state: entered from every unscoped buffer at the contents after the first host
    operations, left with the result's array at what the write-backs folded. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_arrays (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_arrays (V1 m ρ) c (V2 m ρ c) (W2_of_ne m ρ c main_v1 (by decide)) (W2_of_ne m ρ c main_v2 (by decide))
      (W2_of_ne m ρ c main_v3 (by decide)) (W2_result m ρ c)
      (fun b hb => W2_of_ne m ρ c b fun e => hb (Finset.mem_image.mpr ⟨4, Finset.mem_univ _, e.symm⟩))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.FrameBits.Frame.lean ====
/-
  The frame: the program runs to the end, nothing faults, and the three argument arrays end as launched. An
  argument's buffer is written by no host operation, and the region changes only the result's array, so its
  contents at the last boundary are the launch memory's.
-/
import proofs.«122866_j90031104459227_2_alg».proof.Proof.FrameBits.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.FrameIdeal.Blocks.lean ====
/-
  The five windows of the expert feed-forward kernel at the moment the region is entered.
  The grid is (expert, token tile, reduction tile) = 8 x 4 x 16, the reduction tile fastest, so point t has
  reduction step t mod 16. Window 0 is the token tile of x, windows 1 and 2 are the gate and the up column tiles
  of ONE array (the weights gate_up), window 3 the down row tile, window 4 the output token tile, which stays in
  its staging buffer across the 16 reduction steps and is written back at the last.
-/
import proofs.«122866_j90031104459227_2_alg».proof.Proof.Gen.KernelIdeal.Launch
import proofs.«122866_j90031104459227_2_alg».proof.Proof.Gen.KernelIdeal.Skeleton
import proofs.«122866_j90031104459227_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or
    not: an unfetched point has the same block index as the one before it. -/
theorem before_in_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body's one branch: "this is the first reduction step", from the grid coordinates. -/
abbrev firstStep (i : grid0.Coords) : Prop :=
  (Scalar.cmpi .ne (Scalar.extui (Scalar.cmpi .eq (BitVec.ofNat 32 (i 2).val) 0#32)) 0#32) = 1#1
/-- It holds exactly at the points whose reduction step is 0. -/
theorem firstStep_iff : ∀ t : Fin cfg0.N, firstStep (grid0.coords t) ↔ t.val % 16 = 0 :=
  (by decide +kernel : ∀ t : Fin grid0.N, firstStep (grid0.coords t) ↔ t.val % 16 = 0)

/-- One staging buffer of the output window, through which its contents are stated. -/
abbrev VO : View sig .tc .vmem S1x512x4096 .f32 := (Memref.whole cc0_stg4_0 : Memref sig .tc .vmem S1x512x4096 .f32).view
/-- Each window's current staging memref at point `t`, as the pipeline passes it to the body, and its wholeness. -/
abbrev ms0 (t : Fin cfg0.N) : Memref sig .tc .vmem S1x512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x4096 .f32 := win0_4.stage (cfg0.slots t 4)
abbrev hs4 (t : Fin cfg0.N) : (ms4 t).IsWhole := hstage0_4 ((cfg0.slots t 4).cast nbuf0_4)

end Cert.KernelIdeal.Hand

end
-- ==== Proof.FrameIdeal.RunFirst.lean ====
/-
  The kernel body at a point whose reduction step is the first: the output tile's staging buffer, holding anything,
  is overwritten with zeros, and then the step's contribution is added to what was just stored.
-/
import proofs.«122866_j90031104459227_2_alg».proof.Proof.FrameIdeal.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The pieces the body's two stores leave in the output tile's staging memref at a first reduction step, with the
    body's run on whole staging memrefs: the four input tiles at their contents come back as they were. -/
noncomputable def runFirst (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : firstStep i)
    (x0 : Vec F S1x512x4096 .bf16) (x1 : Vec F S1x4096x256 .bf16) (x2 : Vec F S1x4096x256 .bf16) (x3 : Vec F S1x256x4096 .bf16) :
    { L : List (View.Piece (Elt F) S1x512x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__moe_kernel i arg3 harg3 arg4 harg4 arg5 harg5 arg6 harg6 arg7 harg7) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.FrameIdeal.RunLater.lean ====
/-
  The kernel body at a point whose reduction step is not the first: the output tile's staging buffer holds the sum
  of the earlier steps' contributions, and this step's contribution is added to it.
-/
import proofs.«122866_j90031104459227_2_alg».proof.Proof.FrameIdeal.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The piece the body's one store leaves in the output tile's staging memref at a later reduction step, the
    buffer entering at its running contents `acc`, with the body's run on whole staging memrefs. -/
noncomputable def runLater (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : ¬firstStep i)
    (x0 : Vec F S1x512x4096 .bf16) (x1 : Vec F S1x4096x256 .bf16) (x2 : Vec F S1x4096x256 .bf16) (x3 : Vec F S1x256x4096 .bf16) (acc : Vec F S1x512x4096 .f32) :
    { L : List (View.Piece (Elt F) S1x512x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) Variants.none c none) E (cc0__moe_kernel i arg3 harg3 arg4 harg4 arg5 harg5 arg6 harg6 arg7 harg7) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.FrameIdeal.Data.lean ====
/-
  What the output token tile holds in its staging buffer after each grid point, and the pipeline's proof data.
  At a point whose reduction step is the first the buffer ends at that step's contribution added to zero; at a later
  step, at the step's contribution added to what the point before left: the buffer is not written back in between
  (only the last reduction step writes it back), so a point finds there what its predecessor stored.
  The two weight windows read ONE array (the gate half and the up half of the fused weights): each holds it at one
  half of the full share.
-/
import proofs.«122866_j90031104459227_2_alg».proof.Proof.FrameIdeal.RunLater
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two stores of a first reduction step tile the output tile, so they cover it. -/
theorem coverFirst (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : firstStep i)
    (x0 : Vec F S1x512x4096 .bf16) (x1 : Vec F S1x4096x256 .bf16) (x2 : Vec F S1x4096x256 .bf16) (x3 : Vec F S1x256x4096 .bf16) (y : S1x512x4096.Idx) :
    ∃ pc ∈ (runFirst c i arg3 harg3 arg4 harg4 arg5 harg5 arg6 harg6 arg7 harg7 hc x0 x1 x2 x3).1, y ∈ pc.1.set :=
  View.cover_of_tiledL (runFirst c i arg3 harg3 arg4 harg4 arg5 harg5 arg6 harg6 arg7 harg7 hc x0 x1 x2 x3).1 S1x512x4096.size (by sl_kernel_rfl) y

/-- What a first reduction step leaves in the output tile's buffer: its pieces read back. -/
def outFirst (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : firstStep i)
    (x0 : Vec F S1x512x4096 .bf16) (x1 : Vec F S1x4096x256 .bf16) (x2 : Vec F S1x4096x256 .bf16) (x3 : Vec F S1x256x4096 .bf16) : Vec F S1x512x4096 .f32 :=
  VO.read (Elt F) (VO.writes (Elt F) VO.junk (runFirst c i arg3 harg3 arg4 harg4 arg5 harg5 arg6 harg6 arg7 harg7 hc x0 x1 x2 x3).1)

/-- The one store of a later reduction step covers the output tile. -/
theorem coverLater (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : ¬firstStep i)
    (x0 : Vec F S1x512x4096 .bf16) (x1 : Vec F S1x4096x256 .bf16) (x2 : Vec F S1x4096x256 .bf16) (x3 : Vec F S1x256x4096 .bf16) (acc : Vec F S1x512x4096 .f32) (y : S1x512x4096.Idx) :
    ∃ pc ∈ (runLater c i arg3 harg3 arg4 harg4 arg5 harg5 arg6 harg6 arg7 harg7 hc x0 x1 x2 x3 acc).1, y ∈ pc.1.set :=
  View.cover_of_tiledL (runLater c i arg3 harg3 arg4 harg4 arg5 harg5 arg6 harg6 arg7 harg7 hc x0 x1 x2 x3 acc).1 S1x512x4096.size (by sl_kernel_rfl) y

/-- What a later reduction step leaves in the output tile's buffer, entered at `acc`. -/
def outLater (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : ¬firstStep i)
    (x0 : Vec F S1x512x4096 .bf16) (x1 : Vec F S1x4096x256 .bf16) (x2 : Vec F S1x4096x256 .bf16) (x3 : Vec F S1x256x4096 .bf16) (acc : Vec F S1x512x4096 .f32) : Vec F S1x512x4096 .f32 :=
  VO.read (Elt F) (VO.writes (Elt F) VO.junk (runLater c i arg3 harg3 arg4 harg4 arg5 harg5 arg6 harg6 arg7 harg7 hc x0 x1 x2 x3 acc).1)

/-- THE ACCUMULATION: the output tile's staging buffer after the body at position `n` of the grid. -/
def outsAt (c : Dev nD) : (n : ℕ) → n < cfg0.N → Vec F S1x512x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((firstStep_iff ⟨0, hn⟩).mpr (Nat.zero_mod _)) (iblk V c 0 ⟨0, hn⟩) (iblk V c 1 ⟨0, hn⟩) (iblk V c 2 ⟨0, hn⟩) (iblk V c 3 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((firstStep_iff ⟨n + 1, hn⟩).mpr h0) (iblk V c 0 ⟨n + 1, hn⟩) (iblk V c 1 ⟨n + 1, hn⟩) (iblk V c 2 ⟨n + 1, hn⟩) (iblk V c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((firstStep_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn))

theorem outsAt_first (c : Dev nD) (t : Fin cfg0.N) (h0 : t.val % 16 = 0) :
    outsAt V c t.val t.isLt = outFirst c (grid0.coords t) (ms0 t) (hs0 t) (ms1 t) (hs1 t) (ms2 t) (hs2 t) (ms3 t) (hs3 t) (ms4 t) (hs4 t) ((firstStep_iff t).mpr h0) (iblk V c 0 t) (iblk V c 1 t) (iblk V c 2 t) (iblk V c 3 t) := by
  obtain ⟨n, hn⟩ := t
  cases n with
  | zero => exact rfl
  | succ n => exact (dif_pos h0).trans rfl

theorem outsAt_later (c : Dev nD) (t : Fin cfg0.N) (h0 : ¬t.val % 16 = 0) :
    outsAt V c t.val t.isLt = outLater c (grid0.coords t) (ms0 t) (hs0 t) (ms1 t) (hs1 t) (ms2 t) (hs2 t) (ms3 t) (hs3 t) (ms4 t) (hs4 t) (fun h => h0 ((firstStep_iff t).mp h)) (iblk V c 0 t) (iblk V c 1 t) (iblk V c 2 t) (iblk V c 3 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the pipeline on core `c`: the arrays as the region finds them; after the body each input
    tile's buffer at its block and the output tile's at the accumulation; nothing owed; the fused weights held by the
    gate window and the up window at the two halves of the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt V c t.val t.isLt
  Φ _ := Pipeline.ΦA spec0 c
  q w := match w with
    | ⟨1, _⟩ => fullShare.left
    | ⟨2, _⟩ => fullShare.right
    | _ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outsAt V c t.val t.isLt := by dsimp only [dat]

theorem before_0 (c : Dev nD) (t : Fin cfg0.N) (d) : (dat V c).before 0 t d = iblk V c 0 t :=
  before_in_0 V (dat V c) (A_eq V c 0) (after_0 V c) t d
theorem before_1 (c : Dev nD) (t : Fin cfg0.N) (d) : (dat V c).before 1 t d = iblk V c 1 t :=
  before_in_1 V (dat V c) (A_eq V c 1) (after_1 V c) t d
theorem before_2 (c : Dev nD) (t : Fin cfg0.N) (d) : (dat V c).before 2 t d = iblk V c 2 t :=
  before_in_2 V (dat V c) (A_eq V c 2) (after_2 V c) t d
theorem before_3 (c : Dev nD) (t : Fin cfg0.N) (d) : (dat V c).before 3 t d = iblk V c 3 t :=
  before_in_3 V (dat V c) (A_eq V c 3) (after_3 V c) t d

/-- At a later reduction step the output tile's buffer holds what the body left at the point before: the point
    is not the first of the grid and the buffer was not written back in between. -/
theorem before_4_later (c : Dev nD) (t : Fin cfg0.N) (h0 : ¬t.val % 16 = 0) (d) :
    (dat V c).before 4 t d = outsAt V c (t.val - 1) (Nat.lt_of_le_of_lt (Nat.sub_le _ _) t.isLt) := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dat]

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the inputs' buffers hold their blocks; the reduction step says which case the point is
    in; at a later step the output buffer holds what the point before left; so the case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  have hN : t.val < 512 := lt_of_lt_of_eq t.isLt (show cfg0.N = 512 from N_0)
  by_cases h0 : t.val % 16 = 0
  · rw [outsAt_first V c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((firstStep_iff t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_later V c t h0]
    simp only [before_4_later V c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((firstStep_iff t).mp h)) (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.FrameIdeal.Pieces.lean ====
/-
  What each reduction step leaves in the output tile's buffer, as the body's arithmetic: the step's payload of the
  four input tiles and of what the buffer held — zeros at a first step (the body has just stored them), the running
  contents at a later one. A store through the whole tile, made last, decides the buffer whatever was stored before.
-/
import proofs.«122866_j90031104459227_2_alg».proof.Proof.FrameIdeal.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-tile access. -/
theorem zero3 : (![0, 0, 0] : Fin 3 → ℕ) = fun _ => 0 := by
  funext a; fin_cases a <;> rfl

theorem outLater_eq (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : ¬firstStep i)
    (x0 : Vec F S1x512x4096 .bf16) (x1 : Vec F S1x4096x256 .bf16) (x2 : Vec F S1x4096x256 .bf16) (x3 : Vec F S1x256x4096 .bf16) (acc : Vec F S1x512x4096 .f32) :
    outLater c i arg3 harg3 arg4 harg4 arg5 harg5 arg6 harg6 arg7 harg7 hc x0 x1 x2 x3 acc = k0_pay2 x0 x1 x2 acc x3 := by
  unfold outLater
  rw [View.read_writes_eq_canon _ _ _ (coverLater c i arg3 harg3 arg4 harg4 arg5 harg5 arg6 harg6 arg7 harg7 hc x0 x1 x2 x3 acc)]
  unfold runLater
  dsimp only
  rw [View.canon_unit_zero zero3]
  simp only [View.readAt_eq_ld, harg3.read_unread, harg4.read_unread, harg5.read_unread, harg6.read_unread, harg7.read_unread,
    View.ld_unit_zero (S := S1x512x4096) zero3, View.ld_unit_zero (S := S1x4096x256) zero3, View.ld_unit_zero (S := S1x256x4096) zero3]

theorem outFirst_eq (c : Dev nD) (i : grid0.Coords) (arg3 : Memref sig .tc .vmem S1x512x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x512x4096 .f32) (harg7 : arg7.IsWhole) (hc : firstStep i)
    (x0 : Vec F S1x512x4096 .bf16) (x1 : Vec F S1x4096x256 .bf16) (x2 : Vec F S1x4096x256 .bf16) (x3 : Vec F S1x256x4096 .bf16) :
    outFirst c i arg3 harg3 arg4 harg4 arg5 harg5 arg6 harg6 arg7 harg7 hc x0 x1 x2 x3 = k0_pay2 x0 x1 x2 (k0_pay1 (F := F)) x3 := by
  unfold outFirst
  rw [View.read_writes_eq_canon _ _ _ (coverFirst c i arg3 harg3 arg4 harg4 arg5 harg5 arg6 harg6 arg7 harg7 hc x0 x1 x2 x3)]
  unfold runFirst
  dsimp only
  sl_unfold_words
  rw [View.canon_cons_unit_zero zero3]
  simp only [View.readAt_eq_ld, harg3.read_unread, harg4.read_unread, harg5.read_unread, harg6.read_unread,
    View.ld_unit_zero (S := S1x512x4096) zero3, View.ld_unit_zero (S := S1x4096x256) zero3, View.ld_unit_zero (S := S1x256x4096) zero3]
  rw [View.readCov_unit_zero (S := S1x512x4096) arg7.view zero3]

end Cert.KernelIdeal.Hand

end
-- ==== Proof.FrameIdeal.Steps.lean ====
/-
  The accumulation, step by step, as the body's arithmetic: after a point the output tile's buffer holds the step's
  payload of the point's four input tiles and of zeros (first reduction step) or of what the point before left
  (later step).
-/
import proofs.«122866_j90031104459227_2_alg».proof.Proof.FrameIdeal.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem outsAt_first_pay (c : Dev nD) (t : Fin cfg0.N) (h0 : t.val % 16 = 0) :
    outsAt V c t.val t.isLt = k0_pay2 (iblk V c 0 t) (iblk V c 1 t) (iblk V c 2 t) (k0_pay1 (F := F)) (iblk V c 3 t) :=
  (outsAt_first V c t h0).trans (outFirst_eq ..)

theorem outsAt_later_pay (c : Dev nD) (t : Fin cfg0.N) (h0 : ¬t.val % 16 = 0) :
    outsAt V c t.val t.isLt = k0_pay2 (iblk V c 0 t) (iblk V c 1 t) (iblk V c 2 t)
      (outsAt V c (t.val - 1) (Nat.lt_of_le_of_lt (Nat.sub_le _ _) t.isLt)) (iblk V c 3 t) :=
  (outsAt_later V c t h0).trans (outLater_eq ..)

end Cert.KernelIdeal.Hand

end
-- ==== Proof.SwigluSpec.lean ====
/-
  The specification. Llama-4 text experts: eight experts, each a SwiGLU feed-forward applied to its own 2048 token
  rows. The token array is `[16384, 4096]`; row `e * 2048 + r` is row `r` of expert `e` (the row-major view
  `[8, 2048, 4096]`). For expert `e` the weight `gu e` is `[4096, 8192]`: its first 4096 columns project to the gate,
  its last 4096 to the up branch; `dn e` is `[4096, 4096]`. With

    gate e r j = ∑ k, x (e * 2048 + r, k) * gu (e, k, j)
    up   e r j = ∑ k, x (e * 2048 + r, k) * gu (e, k, 4096 + j)
    act  e r j = up e r j * (gate e r j * logistic (gate e r j))

  the result is `out (e * 2048 + r, h) = ∑ j, act e r j * dn (e, j, h)`. Everything is read on the extended reals, every
  operation exact; `logistic t = 1 / (1 + exp (-t))` with the extended reals' corners. No program is mentioned here.
-/
import Idealize.ShloMosaic.PureOps.Ideal
import Idealize.ShloMosaic.Lib.ValueIdx

noncomputable section

open scoped BigOperators

namespace Cert.SwigluExperts

open Idealize.ShloMosaic Idealize.ShloMosaic.ValueIdx

/-- Token row `e * 2048 + r`: row `r` of expert `e`. -/
abbrev tokenRow (e : Fin 8) (r : Fin 2048) : Fin 16384 := ⟨e.val * 2048 + r.val, by omega⟩
/-- Column `j` of the gate half of an expert's `[4096, 8192]` weight. -/
abbrev gateCol (j : Fin 4096) : Fin 8192 := ⟨j.val, by omega⟩
/-- Column `4096 + j`: column `j` of the up half. -/
abbrev upCol (j : Fin 4096) : Fin 8192 := ⟨4096 + j.val, by omega⟩

variable (x : FVec Ideal ⟨2, ![16384, 4096]⟩ .f32) (gu : FVec Ideal ⟨3, ![8, 4096, 8192]⟩ .f32)
  (dn : FVec Ideal ⟨3, ![8, 4096, 4096]⟩ .f32)

/-- The gate projection of token `r` of expert `e` at intermediate coordinate `j`. -/
def gate (e : Fin 8) (r : Fin 2048) (j : Fin 4096) : EReal :=
  ∑ k : Fin 4096, x (ix2 (tokenRow e r) k) * gu (ix3 e k (gateCol j))

/-- The up projection of the same token at `j`. -/
def up (e : Fin 8) (r : Fin 2048) (j : Fin 4096) : EReal :=
  ∑ k : Fin 4096, x (ix2 (tokenRow e r) k) * gu (ix3 e k (upCol j))

/-- SwiGLU: the up projection times the gate passed through `t ↦ t * logistic t`. -/
def act (e : Fin 8) (r : Fin 2048) (j : Fin 4096) : EReal :=
  up x gu e r j * (gate x gu e r j * Ideal.logistic (gate x gu e r j))

/-- The down projection: the result at token `r` of expert `e`, hidden coordinate `h`. -/
def out (e : Fin 8) (r : Fin 2048) (h : Fin 4096) : EReal :=
  ∑ j : Fin 4096, act x gu e r j * dn (ix3 e j h)

/-- The specification: the `[16384, 4096]` result, whose row `R` belongs to expert `R / 2048` as its row `R % 2048`. -/
def swiglu : FVec Ideal ⟨2, ![16384, 4096]⟩ .f32 := fun i =>
  out x gu dn ⟨(i 0).val / 2048, by have := idx2_lt0 i; omega⟩ ⟨(i 0).val % 2048, by omega⟩ ⟨(i 1).val, idx2_lt1 i⟩

/-- The specification at row `e * 2048 + r`, column `h`. -/
theorem swiglu_apply (e : Fin 8) (r : Fin 2048) (h : Fin 4096) :
    swiglu x gu dn (ix2 (tokenRow e r) h) = out x gu dn e r h := by
  have h0 : (⟨(e.val * 2048 + r.val) / 2048, by omega⟩ : Fin 8) = e := Fin.ext (by show (e.val * 2048 + r.val) / 2048 = e.val; omega)
  have h1 : (⟨(e.val * 2048 + r.val) % 2048, by omega⟩ : Fin 2048) = r := Fin.ext (by show (e.val * 2048 + r.val) % 2048 = r.val; omega)
  show out x gu dn ⟨(e.val * 2048 + r.val) / 2048, _⟩ ⟨(e.val * 2048 + r.val) % 2048, _⟩ ⟨h.val, _⟩ = _
  rw [h0, h1]

end Cert.SwigluExperts

end
-- ==== Proof.BlockReads.lean ====
/-
  The blocks the pipeline hands the kernel at a grid point, read at one element.

  The grid is `8 × 4 × 16`, the last axis fastest: point `t` is expert `t / 64`, token tile `(t / 16) % 4`, reduction step
  `t % 16`. At that point the token block is rows `tt * 512 …` of expert `e`'s 2048 rows, the gate weight tile is columns
  `256 * I …` of expert `e`'s `4096 × 8192` weight, the up weight tile columns `4096 + 256 * I …` of the same array, the
  down weight tile rows `256 * I …` of expert `e`'s `4096 × 4096` weight, and the output block rows `tt * 512 …` of expert
  `e`'s result. Each is stated for an arbitrary array of the window's type.
-/
import proofs.«122866_j90031104459227_2_alg».proof.Proof.Gen.KernelIdeal.Launch
import proofs.«122866_j90031104459227_2_alg».proof.Proof.Gen.KernelIdeal.Points
import proofs.«122866_j90031104459227_2_alg».proof.Proof.SwigluSpec
import Idealize.ShloMosaic.Lib.ValueIdx

noncomputable section

namespace Cert.SwigluExperts

open Cert.KernelIdeal Cert.KernelIdeal.Gen Idealize.ShloMosaic Idealize.ShloMosaic.ValueIdx

/-! ## A grid point's three coordinates -/

theorem point_lt (t : Fin cfg0.N) : t.val < 512 := lt_of_lt_of_eq t.isLt N_0

/-- The expert of point `t`. -/
def ptExpert (t : Fin cfg0.N) : Fin 8 := ⟨t.val / 64, by have := point_lt t; omega⟩
/-- The token tile of point `t`. -/
def ptTokenTile (t : Fin cfg0.N) : Fin 4 := ⟨t.val / 16 % 4, by omega⟩
/-- The reduction step of point `t`. -/
def ptStep (t : Fin cfg0.N) : Fin 16 := ⟨t.val % 16, by omega⟩

/-- Row `tt * 512 + r` of an expert's 2048 rows: row `r` of token tile `tt`. -/
abbrev blockRow (tt : Fin 4) (r : Fin 512) : Fin 2048 := ⟨tt.val * 512 + r.val, by omega⟩
/-- Intermediate coordinate `256 * I + jj`: coordinate `jj` of tile `I`. -/
abbrev tileCoord (I : Fin 16) (jj : Fin 256) : Fin 4096 := ⟨256 * I.val + jj.val, by omega⟩

/-- The point with given expert, token tile and reduction step. -/
def gridPoint (e : Fin 8) (tt : Fin 4) (I : Fin 16) : Fin cfg0.N :=
  ⟨e.val * 64 + tt.val * 16 + I.val, lt_of_lt_of_eq (b := 512) (by omega) N_0.symm⟩

theorem ptExpert_gridPoint (e : Fin 8) (tt : Fin 4) (I : Fin 16) : ptExpert (gridPoint e tt I) = e :=
  Fin.ext (by show (e.val * 64 + tt.val * 16 + I.val) / 64 = e.val; omega)
theorem ptTokenTile_gridPoint (e : Fin 8) (tt : Fin 4) (I : Fin 16) : ptTokenTile (gridPoint e tt I) = tt :=
  Fin.ext (by show (e.val * 64 + tt.val * 16 + I.val) / 16 % 4 = tt.val; omega)
theorem ptStep_gridPoint (e : Fin 8) (tt : Fin 4) (I : Fin 16) : ptStep (gridPoint e tt I) = I :=
  Fin.ext (by show (e.val * 64 + tt.val * 16 + I.val) % 16 = I.val; omega)

/-! ## The windows' block indices at a point, decided over the grid -/

theorem block_index : ∀ t : Fin cfg0.N,
    win0_0.index t (0 : Fin 3) = t.val / 64 ∧ win0_0.index t (1 : Fin 3) = t.val / 16 % 4 ∧ win0_0.index t (2 : Fin 3) = 0
    ∧ win0_1.index t (0 : Fin 3) = t.val / 64 ∧ win0_1.index t (1 : Fin 3) = 0 ∧ win0_1.index t (2 : Fin 3) = t.val % 16
    ∧ win0_2.index t (0 : Fin 3) = t.val / 64 ∧ win0_2.index t (1 : Fin 3) = 0 ∧ win0_2.index t (2 : Fin 3) = 16 + t.val % 16
    ∧ win0_3.index t (0 : Fin 3) = t.val / 64 ∧ win0_3.index t (1 : Fin 3) = t.val % 16 ∧ win0_3.index t (2 : Fin 3) = 0
    ∧ win0_4.index t (0 : Fin 3) = t.val / 64 ∧ win0_4.index t (1 : Fin 3) = t.val / 16 % 4 ∧ win0_4.index t (2 : Fin 3) = 0 :=
  (by decide +kernel : ∀ t : Fin grid0.N, _)

/-! ## The blocks read at an element -/

/-- The token block at `(0, r, k)`: the tokens of expert `e` at row `tt * 512 + r`. -/
theorem tokens_block_apply (A0 : (⟨S8x2048x4096, .bf16⟩ : BufTy).Contents (Elt Ideal)) (t : Fin cfg0.N) (r : Fin 512) (k : Fin 4096) :
    ((cfg0.win 0).blk t).view.read (Elt Ideal) A0 (ix3 (0 : Fin 1) r k) = A0 (ix3 (ptExpert t) (blockRow (ptTokenTile t) r) k) := by
  obtain ⟨e0, e1, e2, -⟩ := block_index t
  show A0 (((cfg0.win 0).blk t).view.emb (ix3 (0 : Fin 1) r k)) = _
  refine congrArg A0 (funext fun a => Fin.ext ?_)
  match a with
  | ⟨0, _⟩ => show win0_0.index t (0 : Fin 3) * 1 + 1 * 0 = t.val / 64; omega
  | ⟨1, _⟩ => show win0_0.index t (1 : Fin 3) * 512 + 1 * r.val = t.val / 16 % 4 * 512 + r.val; omega
  | ⟨2, _⟩ => show win0_0.index t (2 : Fin 3) * 4096 + 1 * k.val = k.val; omega

/-- The gate weight tile at `(0, k, jj)`: expert `e`'s fused weight at column `256 * I + jj`. -/
theorem gate_block_apply (A1 : (⟨S8x4096x8192, .bf16⟩ : BufTy).Contents (Elt Ideal)) (t : Fin cfg0.N) (k : Fin 4096) (jj : Fin 256) :
    ((cfg0.win 1).blk t).view.read (Elt Ideal) A1 (ix3 (0 : Fin 1) k jj) = A1 (ix3 (ptExpert t) k (gateCol (tileCoord (ptStep t) jj))) := by
  obtain ⟨-, -, -, e0, e1, e2, -⟩ := block_index t
  show A1 (((cfg0.win 1).blk t).view.emb (ix3 (0 : Fin 1) k jj)) = _
  refine congrArg A1 (funext fun a => Fin.ext ?_)
  match a with
  | ⟨0, _⟩ => show win0_1.index t (0 : Fin 3) * 1 + 1 * 0 = t.val / 64; omega
  | ⟨1, _⟩ => show win0_1.index t (1 : Fin 3) * 4096 + 1 * k.val = k.val; omega
  | ⟨2, _⟩ => show win0_1.index t (2 : Fin 3) * 256 + 1 * jj.val = 256 * (t.val % 16) + jj.val; omega

/-- The up weight tile at `(0, k, jj)`: the same array at column `4096 + 256 * I + jj`. -/
theorem up_block_apply (A1 : (⟨S8x4096x8192, .bf16⟩ : BufTy).Contents (Elt Ideal)) (t : Fin cfg0.N) (k : Fin 4096) (jj : Fin 256) :
    ((cfg0.win 2).blk t).view.read (Elt Ideal) A1 (ix3 (0 : Fin 1) k jj) = A1 (ix3 (ptExpert t) k (upCol (tileCoord (ptStep t) jj))) := by
  obtain ⟨-, -, -, -, -, -, e0, e1, e2, -⟩ := block_index t
  show A1 (((cfg0.win 2).blk t).view.emb (ix3 (0 : Fin 1) k jj)) = _
  refine congrArg A1 (funext fun a => Fin.ext ?_)
  match a with
  | ⟨0, _⟩ => show win0_2.index t (0 : Fin 3) * 1 + 1 * 0 = t.val / 64; omega
  | ⟨1, _⟩ => show win0_2.index t (1 : Fin 3) * 4096 + 1 * k.val = k.val; omega
  | ⟨2, _⟩ => show win0_2.index t (2 : Fin 3) * 256 + 1 * jj.val = 4096 + (256 * (t.val % 16) + jj.val); omega

/-- The down weight tile at `(0, jj, h)`: expert `e`'s down weight at row `256 * I + jj`. -/
theorem down_block_apply (A3 : (⟨S8x4096x4096, .bf16⟩ : BufTy).Contents (Elt Ideal)) (t : Fin cfg0.N) (jj : Fin 256) (h : Fin 4096) :
    ((cfg0.win 3).blk t).view.read (Elt Ideal) A3 (ix3 (0 : Fin 1) jj h) = A3 (ix3 (ptExpert t) (tileCoord (ptStep t) jj) h) := by
  obtain ⟨-, -, -, -, -, -, -, -, -, e0, e1, e2, -⟩ := block_index t
  show A3 (((cfg0.win 3).blk t).view.emb (ix3 (0 : Fin 1) jj h)) = _
  refine congrArg A3 (funext fun a => Fin.ext ?_)
  match a with
  | ⟨0, _⟩ => show win0_3.index t (0 : Fin 3) * 1 + 1 * 0 = t.val / 64; omega
  | ⟨1, _⟩ => show win0_3.index t (1 : Fin 3) * 256 + 1 * jj.val = 256 * (t.val % 16) + jj.val; omega
  | ⟨2, _⟩ => show win0_3.index t (2 : Fin 3) * 4096 + 1 * h.val = h.val; omega

/-- The output block at `(0, r, h)`: expert `e`'s result at row `tt * 512 + r`. -/
theorem result_block_apply (A4 : (⟨S8x2048x4096, .f32⟩ : BufTy).Contents (Elt Ideal)) (t : Fin cfg0.N) (r : Fin 512) (h : Fin 4096) :
    ((cfg0.win 4).blk t).view.read (Elt Ideal) A4 (ix3 (0 : Fin 1) r h) = A4 (ix3 (ptExpert t) (blockRow (ptTokenTile t) r) h) := by
  obtain ⟨-, -, -, -, -, -, -, -, -, -, -, -, e0, e1, e2⟩ := block_index t
  show A4 (((cfg0.win 4).blk t).view.emb (ix3 (0 : Fin 1) r h)) = _
  refine congrArg A4 (funext fun a => Fin.ext ?_)
  match a with
  | ⟨0, _⟩ => show win0_4.index t (0 : Fin 3) * 1 + 1 * 0 = t.val / 64; omega
  | ⟨1, _⟩ => show win0_4.index t (1 : Fin 3) * 512 + 1 * r.val = t.val / 16 % 4 * 512 + r.val; omega
  | ⟨2, _⟩ => show win0_4.index t (2 : Fin 3) * 4096 + 1 * h.val = h.val; omega

end Cert.SwigluExperts

end
-- ==== Proof.TilePayload.lean ====
/-
  The kernel's two stored values read at one element, on the extended reals.

  At the first point of the reduction axis the kernel stores a block of zeros. At every point it then stores, for the
  `512 × 4096` output block `o`, the token block `x` (`512 × 4096`), the gate and up weight tiles `wg`, `wu`
  (`4096 × 256` each) and the down weight tile `wd` (`256 × 4096`),

    o (r, h) + ∑ jj < 256, (u jj * (g jj * logistic (g jj))) * wd (jj, h)
    with  g jj = ∑ k < 4096, x (r, k) * wg (k, jj)   and   u jj = ∑ k < 4096, x (r, k) * wu (k, jj).

  Each of the three block products accumulates into a zero block, so it is the bare sum over the contracted axis; a
  change of float format is the identity on the extended reals; the blocks carry a leading unit axis that the casts drop
  and restore.
-/
import proofs.«122866_j90031104459227_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.SwigluExperts

open Cert.KernelIdeal Cert.KernelIdeal.Gen Idealize.ShloMosaic Idealize.ShloMosaic.ValueIdx

/-! ## The two block products' operand indices -/

/-- The `[512, 4096] × [4096, 256]` product reads its left operand at the output's row … -/
theorem lhs_in_0 (j : S512x256.Idx) (q : dot_S512x4096_S4096x256_S512x256_1_0_0_1_n_n.contr.Idx) :
    (dot_S512x4096_S4096x256_S512x256_1_0_0_1_n_n.lhsIdx j q 0).val = (j 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
/-- … and its right operand at the output's column. -/
theorem rhs_in_1 (j : S512x256.Idx) (q : dot_S512x4096_S4096x256_S512x256_1_0_0_1_n_n.contr.Idx) :
    (dot_S512x4096_S4096x256_S512x256_1_0_0_1_n_n.rhsIdx j q 1).val = (j 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl
/-- The `[512, 256] × [256, 4096]` product likewise: the left operand at the output's row … -/
theorem lhs_down_0 (j : S512x4096.Idx) (q : dot_S512x256_S256x4096_S512x4096_1_0_0_1_n_n.contr.Idx) :
    (dot_S512x256_S256x4096_S512x4096_1_0_0_1_n_n.lhsIdx j q 0).val = (j 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
/-- … the right operand at the output's column. -/
theorem rhs_down_1 (j : S512x4096.Idx) (q : dot_S512x256_S256x4096_S512x4096_1_0_0_1_n_n.contr.Idx) :
    (dot_S512x256_S256x4096_S512x4096_1_0_0_1_n_n.rhsIdx j q 1).val = (j 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-! ## The block products into a zero block, at an element -/

/-- The `[512, 4096] × [4096, 256]` product into zeros at `(r, jj)`: the sum over the 4096 contracted coordinates. -/
theorem matmul_in_apply (a : FVec Ideal S512x4096 .bf16) (b : FVec Ideal S4096x256 .bf16) (r : Fin 512) (jj : Fin 256) :
    matmul (F := Ideal) dot_S512x4096_S4096x256_S512x256_1_0_0_1_n_n none a b (constant (F := Ideal) S512x256 .f32 0x00000000#32) (ix2 r jj)
      = ∑ k : Fin 4096, a (ix2 r k) * b (ix2 k jj) := by
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 r jj) ((contrEquiv1 dot_S512x4096_S4096x256_S512x256_1_0_0_1_n_n 4096 rfl rfl).symm k) = ix2 r k := funext fun c => Fin.ext (by
    match c with
    | ⟨0, _⟩ => exact lhs_in_0 _ _
    | ⟨1, _⟩ => exact (dot_S512x4096_S4096x256_S512x256_1_0_0_1_n_n.lhsIdx_val_of_single rfl _ _).trans hk)
  have er : dot_S512x4096_S4096x256_S512x256_1_0_0_1_n_n.rhsIdx (ix2 r jj) ((contrEquiv1 dot_S512x4096_S4096x256_S512x256_1_0_0_1_n_n 4096 rfl rfl).symm k) = ix2 k jj := funext fun c => Fin.ext (by
    match c with
    | ⟨0, _⟩ => exact (dot_S512x4096_S4096x256_S512x256_1_0_0_1_n_n.rhsIdx_val_of_single rfl _ _).trans hk
    | ⟨1, _⟩ => exact rhs_in_1 _ _)
  rw [el, er]

/-- The `[512, 256] × [256, 4096]` product into zeros at `(r, h)`: the sum over the 256 contracted coordinates. -/
theorem matmul_down_apply (a : FVec Ideal S512x256 .bf16) (b : FVec Ideal S256x4096 .bf16) (r : Fin 512) (h : Fin 4096) :
    matmul (F := Ideal) dot_S512x256_S256x4096_S512x4096_1_0_0_1_n_n none a b (constant (F := Ideal) S512x4096 .f32 0x00000000#32) (ix2 r h)
      = ∑ jj : Fin 256, a (ix2 r jj) * b (ix2 jj h) := by
  simp only [matmul]
  rw [Ideal.matmul_constant_zero_apply, ← Equiv.sum_comp (contrEquiv1 dot_S512x256_S256x4096_S512x4096_1_0_0_1_n_n 256 rfl rfl).symm]
  refine Finset.sum_congr rfl fun k _ => ?_
  have hk := contrEquiv1_symm_val dot_S512x256_S256x4096_S512x4096_1_0_0_1_n_n 256 rfl rfl k
  have el : dot_S512x256_S256x4096_S512x4096_1_0_0_1_n_n.lhsIdx (ix2 r h) ((contrEquiv1 dot_S512x256_S256x4096_S512x4096_1_0_0_1_n_n 256 rfl rfl).symm k) = ix2 r k := funext fun c => Fin.ext (by
    match c with
    | ⟨0, _⟩ => exact lhs_down_0 _ _
    | ⟨1, _⟩ => exact (dot_S512x256_S256x4096_S512x4096_1_0_0_1_n_n.lhsIdx_val_of_single rfl _ _).trans hk)
  have er : dot_S512x256_S256x4096_S512x4096_1_0_0_1_n_n.rhsIdx (ix2 r h) ((contrEquiv1 dot_S512x256_S256x4096_S512x4096_1_0_0_1_n_n 256 rfl rfl).symm k) = ix2 k h := funext fun c => Fin.ext (by
    match c with
    | ⟨0, _⟩ => exact (dot_S512x256_S256x4096_S512x4096_1_0_0_1_n_n.rhsIdx_val_of_single rfl _ _).trans hk
    | ⟨1, _⟩ => exact rhs_down_1 _ _)
  rw [el, er]

/-! ## The payloads -/

/-- Row `r` of the token block against column `jj` of a `4096 × 256` weight tile. -/
def tileDot (x : Vec Ideal S1x512x4096 .bf16) (w : Vec Ideal S1x4096x256 .bf16) (r : Fin 512) (jj : Fin 256) : EReal :=
  ∑ k : Fin 4096, x (ix3 0 r k) * w (ix3 0 k jj)

/-- The product of the token block with a weight tile, both under their casts, at `(r, jj)`. -/
theorem tile_product_apply (x : Vec Ideal S1x512x4096 .bf16) (w : Vec Ideal S1x4096x256 .bf16) (r : Fin 512) (jj : Fin 256) :
    matmul (F := Ideal) (φ₁ := .bf16) (φ₂ := .bf16) dot_S512x4096_S4096x256_S512x256_1_0_0_1_n_n none
        (shapeCast S512x4096 x shapeCasts_S1x512x4096_S512x4096) (shapeCast S4096x256 w shapeCasts_S1x4096x256_S4096x256)
        (constant (F := Ideal) S512x256 .f32 0x00000000#32) (ix2 r jj) = tileDot x w r jj := by
  refine (matmul_in_apply _ _ r jj).trans ?_
  exact Finset.sum_congr rfl fun k _ => congrArg₂ (· * ·) (shapeCast_1ab_ab_apply x _ r k) (shapeCast_1ab_ab_apply w _ k jj)

/-- The block stored at the first point of the reduction axis is zero everywhere. -/
theorem pay1_apply (r : Fin 512) (h : Fin 4096) : k0_pay1 (F := Ideal) (ix3 0 r h) = 0 := by
  unfold k0_pay1
  refine (shapeCast_ab_1ab_apply _ _ 0 r h).trans ?_
  exact Ideal.ofBits_zero_f32

/-- THE STEP: the block stored at every point, at `(r, h)`: the block read before it there, plus the tile's
    contribution to the down projection. -/
theorem pay2_apply (v3 : Vec Ideal S1x512x4096 .bf16) (v5 v8 : Vec Ideal S1x4096x256 .bf16)
    (v15 : Vec Ideal S1x512x4096 .f32) (v17 : Vec Ideal S1x256x4096 .bf16) (r : Fin 512) (h : Fin 4096) :
    k0_pay2 v3 v5 v8 v15 v17 (ix3 0 r h)
      = v15 (ix3 0 r h) + ∑ jj : Fin 256,
          (tileDot v3 v8 r jj * (tileDot v3 v5 r jj * Ideal.logistic (tileDot v3 v5 r jj))) * v17 (ix3 0 jj h) := by
  unfold k0_pay2
  refine (shapeCast_ab_1ab_apply _ _ 0 r h).trans ?_
  refine congrArg₂ (· + ·) (shapeCast_1ab_ab_apply v15 _ r h) ?_
  refine (matmul_down_apply _ _ r h).trans ?_
  refine Finset.sum_congr rfl fun jj _ => congrArg₂ (· * ·) ?_ (shapeCast_1ab_ab_apply v17 _ jj h)
  have hg := tile_product_apply v3 v5 r jj
  have hu := tile_product_apply v3 v8 r jj
  rw [← hg, ← hu]
  rfl

end Cert.SwigluExperts

end
-- ==== Proof.TileSum.lean ====
/-
  Regrouping a sum over 4096 coordinates into 16 tiles of 256, over any additive commutative monoid: coordinate
  `256 * I + jj` is coordinate `jj` of tile `I`. Also the form in which a running accumulator produces the tiled sum:
  it starts at zero and adds tile 0, then tile 1, …, then tile 15. Nothing here needs more than commutativity and
  associativity of addition, so it holds on the extended reals without any finiteness.
-/
import Mathlib.Algebra.BigOperators.Fin
import Mathlib.Algebra.BigOperators.Group.Finset.Basic

open scoped BigOperators

namespace Cert.SwigluExperts

variable {M : Type*} [AddCommMonoid M]

/-- A coordinate below 4096 is a tile below 16 and a coordinate below 256 inside the tile. -/
def tileEquiv : Fin 16 × Fin 256 ≃ Fin 4096 where
  toFun p := ⟨256 * p.1.val + p.2.val, by omega⟩
  invFun i := (⟨i.val / 256, by omega⟩, ⟨i.val % 256, by omega⟩)
  left_inv := fun ⟨a, b⟩ => Prod.ext (Fin.ext (by show (256 * a.val + b.val) / 256 = a.val; omega))
    (Fin.ext (by show (256 * a.val + b.val) % 256 = b.val; omega))
  right_inv := fun i => Fin.ext (by show 256 * (i.val / 256) + i.val % 256 = i.val; omega)

/-- The sum tile by tile is the sum. -/
theorem sum_tiles (f : Fin 4096 → M) :
    ∑ I : Fin 16, ∑ jj : Fin 256, f ⟨256 * I.val + jj.val, by omega⟩ = ∑ i : Fin 4096, f i := by
  rw [← Equiv.sum_comp tileEquiv f, Fintype.sum_prod_type]
  rfl

/-- An accumulator that starts at zero and adds `t 0`, `t 1`, … in order: after `n` additions it holds the sum of
    the first `n` terms. -/
def accumulate (t : ℕ → M) : ℕ → M
  | 0 => 0
  | n + 1 => accumulate t n + t n

theorem accumulate_eq_sum (t : ℕ → M) (n : ℕ) : accumulate t n = ∑ I ∈ Finset.range n, t I := by
  induction n with
  | zero => rfl
  | succ n ih => rw [accumulate, ih, Finset.sum_range_succ]

/-- The same for any sequence of accumulator contents `a 0, a 1, …, a N` that starts at zero and whose every step
    below `N` adds the next term: after `n ≤ N` steps it holds the sum of the first `n` terms. -/
theorem eq_sum_of_steps (t a : ℕ → M) (N : ℕ) (h0 : a 0 = 0) (hstep : ∀ n, n < N → a (n + 1) = a n + t n) :
    ∀ n, n ≤ N → a n = ∑ I ∈ Finset.range n, t I := by
  intro n
  induction n with
  | zero => intro _; rw [h0, Finset.range_zero, Finset.sum_empty]
  | succ n ih => intro hn; rw [hstep n (by omega), ih (by omega), Finset.sum_range_succ]

/-- THE RUNNING ACCUMULATOR IS THE SUM: contents `a 0, …, a 16` that start at zero and at step `I` add tile `I` of `f`
    end at the sum of `f` over all 4096 coordinates. -/
theorem eq_sum_of_tile_steps (f : Fin 4096 → M) (a : ℕ → M) (h0 : a 0 = 0)
    (hstep : ∀ I : Fin 16, a (I.val + 1) = a I.val + ∑ jj : Fin 256, f ⟨256 * I.val + jj.val, by omega⟩) :
    a 16 = ∑ i : Fin 4096, f i := by
  let t : ℕ → M := fun n => if hn : n < 16 then ∑ jj : Fin 256, f ⟨256 * n + jj.val, by omega⟩ else 0
  have ht : ∀ I : Fin 16, t I.val = ∑ jj : Fin 256, f ⟨256 * I.val + jj.val, by omega⟩ := fun I => dif_pos I.isLt
  rw [eq_sum_of_steps t a 16 h0 (fun n hn => by rw [hstep ⟨n, hn⟩]; exact congrArg (a n + ·) (ht ⟨n, hn⟩).symm) 16 le_rfl,
    ← Fin.sum_univ_eq_sum_range t 16, ← sum_tiles f]
  exact Finset.sum_congr rfl fun I _ => ht I

end Cert.SwigluExperts
-- ==== Proof.StepIsTile.lean ====
/-
  One reduction step is one tile of the specification's inner sum, and the sixteen steps are the sum.

  At grid point `t` — expert `e`, token tile `tt`, reduction step `I` — the kernel adds to element `(r, h)` of its
  output block the sum over `jj < 256` of `(u jj * (g jj * logistic (g jj))) * wd (jj, h)`, where `g`, `u` are row `r`
  of the token block against column `jj` of the gate and up weight tiles and `wd` is the down weight tile. With the
  blocks read out of arrays that are, as functions into the extended reals, the reshaped tokens and the two weights,
  `g jj` is the specification's gate at intermediate coordinate `256 * I + jj`, `u jj` its up projection there, and the
  step's sum is tile `I` of `∑ j, act (e, tt * 512 + r, j) * dn (e, j, h)`. Starting from zero, the sixteen steps
  therefore end at the specification's result at row `tt * 512 + r` of expert `e`, column `h`.
-/
import proofs.«122866_j90031104459227_2_alg».proof.Proof.BlockReads
import proofs.«122866_j90031104459227_2_alg».proof.Proof.TilePayload
import proofs.«122866_j90031104459227_2_alg».proof.Proof.TileSum

noncomputable section

open scoped BigOperators

namespace Cert.SwigluExperts

open Cert.KernelIdeal Cert.KernelIdeal.Gen Idealize.ShloMosaic Idealize.ShloMosaic.ValueIdx

variable (x : FVec Ideal ⟨2, ![16384, 4096]⟩ .f32) (gu : FVec Ideal ⟨3, ![8, 4096, 8192]⟩ .f32)
  (dn : FVec Ideal ⟨3, ![8, 4096, 4096]⟩ .f32)
  (A0 : (⟨S8x2048x4096, .bf16⟩ : BufTy).Contents (Elt Ideal)) (A1 : (⟨S8x4096x8192, .bf16⟩ : BufTy).Contents (Elt Ideal))
  (A3 : (⟨S8x4096x4096, .bf16⟩ : BufTy).Contents (Elt Ideal))

/-- Row `r` of the token block against column `jj` of the gate weight tile is the specification's gate. -/
theorem gate_tile (hA0 : ∀ e r k, A0 (ix3 e r k) = x (ix2 (tokenRow e r) k)) (hA1 : ∀ i, A1 i = gu i)
    (t : Fin cfg0.N) (r : Fin 512) (jj : Fin 256) :
    tileDot (((cfg0.win 0).blk t).view.read (Elt Ideal) A0) (((cfg0.win 1).blk t).view.read (Elt Ideal) A1) r jj
      = gate x gu (ptExpert t) (blockRow (ptTokenTile t) r) (tileCoord (ptStep t) jj) := by
  unfold tileDot gate
  exact Finset.sum_congr rfl fun k _ => by rw [tokens_block_apply, gate_block_apply, hA0, hA1]

/-- Against column `jj` of the up weight tile, its up projection. -/
theorem up_tile (hA0 : ∀ e r k, A0 (ix3 e r k) = x (ix2 (tokenRow e r) k)) (hA1 : ∀ i, A1 i = gu i)
    (t : Fin cfg0.N) (r : Fin 512) (jj : Fin 256) :
    tileDot (((cfg0.win 0).blk t).view.read (Elt Ideal) A0) (((cfg0.win 2).blk t).view.read (Elt Ideal) A1) r jj
      = up x gu (ptExpert t) (blockRow (ptTokenTile t) r) (tileCoord (ptStep t) jj) := by
  unfold tileDot up
  exact Finset.sum_congr rfl fun k _ => by rw [tokens_block_apply, up_block_apply, hA0, hA1]

/-- ONE STEP IS ONE TILE: what the kernel adds at point `t` to element `(r, h)` of its output block is tile `I` of the
    specification's sum over the intermediate coordinate. -/
theorem step_eq_tile (hA0 : ∀ e r k, A0 (ix3 e r k) = x (ix2 (tokenRow e r) k)) (hA1 : ∀ i, A1 i = gu i)
    (hA3 : ∀ i, A3 i = dn i) (t : Fin cfg0.N) (r : Fin 512) (h : Fin 4096) :
    ∑ jj : Fin 256,
        (tileDot (((cfg0.win 0).blk t).view.read (Elt Ideal) A0) (((cfg0.win 2).blk t).view.read (Elt Ideal) A1) r jj
          * (tileDot (((cfg0.win 0).blk t).view.read (Elt Ideal) A0) (((cfg0.win 1).blk t).view.read (Elt Ideal) A1) r jj
            * Ideal.logistic (tileDot (((cfg0.win 0).blk t).view.read (Elt Ideal) A0) (((cfg0.win 1).blk t).view.read (Elt Ideal) A1) r jj)))
          * ((cfg0.win 3).blk t).view.read (Elt Ideal) A3 (ix3 (0 : Fin 1) jj h)
      = ∑ jj : Fin 256, act x gu (ptExpert t) (blockRow (ptTokenTile t) r) (tileCoord (ptStep t) jj)
          * dn (ix3 (ptExpert t) (tileCoord (ptStep t) jj) h) := by
  refine Finset.sum_congr rfl fun jj _ => ?_
  rw [gate_tile x gu A0 A1 hA0 hA1, up_tile x gu A0 A1 hA0 hA1, down_block_apply, hA3]
  rfl

/-- THE SIXTEEN STEPS ARE THE SUM: accumulator contents that start at zero and at step `I` add tile `I` of the
    specification's sum end at the specification's result. -/
theorem tiles_eq_out (e : Fin 8) (tt : Fin 4) (r : Fin 512) (h : Fin 4096) (a : ℕ → EReal) (h0 : a 0 = 0)
    (hstep : ∀ I : Fin 16, a (I.val + 1) = a I.val
      + ∑ jj : Fin 256, act x gu e (blockRow tt r) (tileCoord I jj) * dn (ix3 e (tileCoord I jj) h)) :
    a 16 = out x gu dn e (blockRow tt r) h := by
  unfold out
  exact eq_sum_of_tile_steps (fun j => act x gu e (blockRow tt r) j * dn (ix3 e j h)) a h0 hstep

/-- The same with each step as the kernel produces it, at the point of expert `e`, token tile `tt` and reduction step `I`. -/
theorem steps_eq_out (hA0 : ∀ e r k, A0 (ix3 e r k) = x (ix2 (tokenRow e r) k)) (hA1 : ∀ i, A1 i = gu i)
    (hA3 : ∀ i, A3 i = dn i) (e : Fin 8) (tt : Fin 4) (r : Fin 512) (h : Fin 4096) (a : ℕ → EReal) (h0 : a 0 = 0)
    (hstep : ∀ I : Fin 16, a (I.val + 1) = a I.val
      + ∑ jj : Fin 256,
        (tileDot (((cfg0.win 0).blk (gridPoint e tt I)).view.read (Elt Ideal) A0) (((cfg0.win 2).blk (gridPoint e tt I)).view.read (Elt Ideal) A1) r jj
          * (tileDot (((cfg0.win 0).blk (gridPoint e tt I)).view.read (Elt Ideal) A0) (((cfg0.win 1).blk (gridPoint e tt I)).view.read (Elt Ideal) A1) r jj
            * Ideal.logistic (tileDot (((cfg0.win 0).blk (gridPoint e tt I)).view.read (Elt Ideal) A0) (((cfg0.win 1).blk (gridPoint e tt I)).view.read (Elt Ideal) A1) r jj)))
          * ((cfg0.win 3).blk (gridPoint e tt I)).view.read (Elt Ideal) A3 (ix3 (0 : Fin 1) jj h)) :
    a 16 = out x gu dn e (blockRow tt r) h := by
  refine tiles_eq_out x gu dn e tt r h a h0 fun I => ?_
  rw [hstep I, step_eq_tile x gu dn A0 A1 A3 hA0 hA1 hA3, ptExpert_gridPoint, ptTokenTile_gridPoint, ptStep_gridPoint]

end Cert.SwigluExperts

end
-- ==== Proof.FrameIdeal.Accum.lean ====
/-
  The value of one output tile at the ideal instance. Fix an expert, a token tile, a row of the tile and a hidden
  coordinate. Start from zero; after reduction step I the entry is the entry before plus the sum, over the 256 inner
  coordinates of tile I, of  up * (gate * logistic gate) * down.  Sixteen such steps run over all 4096 inner
  coordinates once, in tile order, and the extended reals are a commutative monoid under addition, so the entry
  after the last step is the whole inner sum: the feed-forward's output entry.
-/
import proofs.«122866_j90031104459227_2_alg».proof.Proof.FrameIdeal.Steps
import proofs.«122866_j90031104459227_2_alg».proof.Proof.StepIsTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.SwigluExperts Idealize.ShloMosaic.ValueIdx

variable (V : (c : Dev nD) → (b : Ref sig .tc) → Buf (Elt Ideal) ((c : Thread nD τ).loc b))
variable (x : FVec Ideal ⟨2, ![16384, 4096]⟩ .f32) (gu : FVec Ideal ⟨3, ![8, 4096, 8192]⟩ .f32) (dn : FVec Ideal ⟨3, ![8, 4096, 4096]⟩ .f32)
variable (A0 : (⟨S8x2048x4096, .bf16⟩ : BufTy).Contents (Elt Ideal)) (A1 : (⟨S8x4096x8192, .bf16⟩ : BufTy).Contents (Elt Ideal)) (A3 : (⟨S8x4096x4096, .bf16⟩ : BufTy).Contents (Elt Ideal))

theorem gridPoint_val (e : Fin 8) (tt : Fin 4) (I : Fin 16) : (gridPoint e tt I).val = e.val * 64 + tt.val * 16 + I.val := rfl

/-- The entry (r, h) of the output tile of (expert, token tile) after its first n reduction steps; zero before any. -/
def stepVal (c : Dev nD) (e : Fin 8) (tt : Fin 4) (r : Fin 512) (h : Fin 4096) : ℕ → EReal
  | 0 => 0
  | n + 1 => if hn : n < 16 then outsAt V c (gridPoint e tt ⟨n, hn⟩).val (gridPoint e tt ⟨n, hn⟩).isLt (ix3 (0 : Fin 1) r h) else 0

theorem stepVal_succ (c : Dev nD) (e : Fin 8) (tt : Fin 4) (r : Fin 512) (h : Fin 4096) (I : Fin 16) :
    stepVal V c e tt r h (I.val + 1) = outsAt V c (gridPoint e tt I).val (gridPoint e tt I).isLt (ix3 (0 : Fin 1) r h) := by
  show (if hn : I.val < 16 then _ else _) = _
  rw [dif_pos I.isLt]

theorem outsAt_congr (c : Dev nD) {n n' : ℕ} (hn : n < cfg0.N) (hn' : n' < cfg0.N) (e : n = n') :
    outsAt V c n hn = outsAt V c n' hn' := by subst e; rfl

/-- One reduction step adds its tile's sum to the entry. -/
theorem stepVal_step (c : Dev nD)
    (hV0 : V c (Pipeline.arrRef spec0 0) = A0) (hV1 : V c (Pipeline.arrRef spec0 1) = A1)
    (hV2 : V c (Pipeline.arrRef spec0 2) = A1) (hV3 : V c (Pipeline.arrRef spec0 3) = A3)
    (e : Fin 8) (tt : Fin 4) (r : Fin 512) (h : Fin 4096) (I : Fin 16) :
    stepVal V c e tt r h (I.val + 1) = stepVal V c e tt r h I.val
      + ∑ jj : Fin 256, (tileDot (((cfg0.win 0).blk (gridPoint e tt I)).view.read (Elt Ideal) A0) (((cfg0.win 2).blk (gridPoint e tt I)).view.read (Elt Ideal) A1) r jj
          * (tileDot (((cfg0.win 0).blk (gridPoint e tt I)).view.read (Elt Ideal) A0) (((cfg0.win 1).blk (gridPoint e tt I)).view.read (Elt Ideal) A1) r jj * Ideal.logistic (tileDot (((cfg0.win 0).blk (gridPoint e tt I)).view.read (Elt Ideal) A0) (((cfg0.win 1).blk (gridPoint e tt I)).view.read (Elt Ideal) A1) r jj)))
          * (((cfg0.win 3).blk (gridPoint e tt I)).view.read (Elt Ideal) A3) (ix3 (0 : Fin 1) jj h) := by
  rw [stepVal_succ]
  have hb0 : iblk V c 0 (gridPoint e tt I) = (((cfg0.win 0).blk (gridPoint e tt I)).view.read (Elt Ideal) A0) := by unfold iblk; rw [hV0]
  have hb1 : iblk V c 1 (gridPoint e tt I) = (((cfg0.win 1).blk (gridPoint e tt I)).view.read (Elt Ideal) A1) := by unfold iblk; rw [hV1]
  have hb2 : iblk V c 2 (gridPoint e tt I) = (((cfg0.win 2).blk (gridPoint e tt I)).view.read (Elt Ideal) A1) := by unfold iblk; rw [hV2]
  have hb3 : iblk V c 3 (gridPoint e tt I) = (((cfg0.win 3).blk (gridPoint e tt I)).view.read (Elt Ideal) A3) := by unfold iblk; rw [hV3]
  have hmod : (gridPoint e tt I).val % 16 = I.val := by rw [gridPoint_val]; have := I.isLt; have := tt.isLt; omega
  rcases Nat.eq_zero_or_pos I.val with hI | hI
  · rw [outsAt_first_pay V c (gridPoint e tt I) (by omega), pay2_apply, pay1_apply, hb0, hb1, hb2, hb3, hI]
    rfl
  · rw [outsAt_later_pay V c (gridPoint e tt I) (by omega), pay2_apply, hb0, hb1, hb2, hb3]
    congr 1
    obtain ⟨k, hk⟩ : ∃ k, I.val = k + 1 := ⟨I.val - 1, by omega⟩
    rw [hk]
    show _ = (if hn : k < 16 then _ else _)
    rw [dif_pos (by have := I.isLt; omega)]
    exact congrFun (outsAt_congr V c _ _ (by rw [gridPoint_val, gridPoint_val]; show _ = _ + k; omega)) _

/-- After its sixteen reduction steps a tile's entry is the feed-forward's output entry. -/
theorem tile_final (c : Dev nD)
    (hV0 : V c (Pipeline.arrRef spec0 0) = A0) (hV1 : V c (Pipeline.arrRef spec0 1) = A1)
    (hV2 : V c (Pipeline.arrRef spec0 2) = A1) (hV3 : V c (Pipeline.arrRef spec0 3) = A3)
    (hA0 : ∀ e r k, A0 (ix3 e r k) = x (ix2 (tokenRow e r) k)) (hA1 : ∀ i, A1 i = gu i) (hA3 : ∀ i, A3 i = dn i)
    (e : Fin 8) (tt : Fin 4) (r : Fin 512) (h : Fin 4096) :
    outsAt V c (gridPoint e tt 15).val (gridPoint e tt 15).isLt (ix3 (0 : Fin 1) r h) = out x gu dn e (blockRow tt r) h := by
  rw [← stepVal_succ V c e tt r h 15]
  exact steps_eq_out x gu dn A0 A1 A3 hA0 hA1 hA3 e tt r h (stepVal V c e tt r h) rfl
    (fun I => stepVal_step V A0 A1 A3 c hV0 hV1 hV2 hV3 e tt r h I)

end Cert.KernelIdeal.Hand

end
-- ==== Proof.FrameIdeal.Region.lean ====
/-
  The region as one segment of the program: how the core's unscoped buffers become the pipeline's arrays when the
  region is entered and how they are put back when it is left.
  Four distinct arrays stand behind the five windows: the token tiles' array, the fused weights (read through the gate
  window AND the up window), the down weights and the result. On entry the fused weights' buffer, held whole at the
  full share, is split into the two halves of that share, one per window; on exit the two halves, which still hold
  the same contents because neither window writes, are joined again. The result's array leaves at what the sixteen
  write-backs folded; every other buffer leaves as it entered.
-/
import proofs.«122866_j90031104459227_2_alg».proof.Proof.FrameIdeal.Data
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-- The core's unscoped buffers are the buffers behind the windows' arrays and the rest. -/
theorem unscoped_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop((Pipeline.arrBufs (Ix := Unit) (Name := ℕ) (U := UR sig nD τ) (Lvl := ℕ) spec0 c V' : sProp 𝕄) ∗ Pipeline.unscopedRest spec0 c V') := by
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- The four distinct buffers behind the windows' arrays, one by one. -/
theorem arrBufs_list (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v1) ↦{fullShare} V' main_v1) ∗ (((c : Thread nD τ).loc main_v2) ↦{fullShare} V' main_v2)
          ∗ (((c : Thread nD τ).loc main_v3) ↦{fullShare} V' main_v3) ∗ (((c : Thread nD τ).loc main_v4) ↦{fullShare} V' main_v4)) := by
  unfold Pipeline.arrBufs
  exact bigSep_eq_bigSepL_of_eq [main_v1, main_v2, main_v3, main_v4] (by decide) (by decide) _

/-- A window's array is a whole buffer: its points-to is over every index. -/
theorem arr_pt0 (c : Dev nD) (q : PosShare TreeShare) (g : Buf (Elt F) ((cfg0.win 0).arr.view.loc (c : Thread nD τ))) :
    (((cfg0.win 0).arr.view.loc (c : Thread nD τ)) ↦[(cfg0.win 0).arr.view.set]{q} g : sProp 𝕄) = (((c : Thread nD τ).loc main_v1) ↦{q} g) := by
  rw [show (cfg0.win 0).arr.view.set = Finset.univ from (arr_whole0 0).set_eq_univ]
theorem arr_pt1 (c : Dev nD) (q : PosShare TreeShare) (g : Buf (Elt F) ((cfg0.win 1).arr.view.loc (c : Thread nD τ))) :
    (((cfg0.win 1).arr.view.loc (c : Thread nD τ)) ↦[(cfg0.win 1).arr.view.set]{q} g : sProp 𝕄) = (((c : Thread nD τ).loc main_v2) ↦{q} g) := by
  rw [show (cfg0.win 1).arr.view.set = Finset.univ from (arr_whole0 1).set_eq_univ]
theorem arr_pt2 (c : Dev nD) (q : PosShare TreeShare) (g : Buf (Elt F) ((cfg0.win 2).arr.view.loc (c : Thread nD τ))) :
    (((cfg0.win 2).arr.view.loc (c : Thread nD τ)) ↦[(cfg0.win 2).arr.view.set]{q} g : sProp 𝕄) = (((c : Thread nD τ).loc main_v2) ↦{q} g) := by
  rw [show (cfg0.win 2).arr.view.set = Finset.univ from (arr_whole0 2).set_eq_univ]
theorem arr_pt3 (c : Dev nD) (q : PosShare TreeShare) (g : Buf (Elt F) ((cfg0.win 3).arr.view.loc (c : Thread nD τ))) :
    (((cfg0.win 3).arr.view.loc (c : Thread nD τ)) ↦[(cfg0.win 3).arr.view.set]{q} g : sProp 𝕄) = (((c : Thread nD τ).loc main_v3) ↦{q} g) := by
  rw [show (cfg0.win 3).arr.view.set = Finset.univ from (arr_whole0 3).set_eq_univ]
theorem arr_pt4 (c : Dev nD) (q : PosShare TreeShare) (g : Buf (Elt F) ((cfg0.win 4).arr.view.loc (c : Thread nD τ))) :
    (((cfg0.win 4).arr.view.loc (c : Thread nD τ)) ↦[(cfg0.win 4).arr.view.set]{q} g : sProp 𝕄) = (((c : Thread nD τ).loc main_v4) ↦{q} g) := by
  rw [show (cfg0.win 4).arr.view.set = Finset.univ from (arr_whole0 4).set_eq_univ]

/-- The share each window holds its array at. -/
theorem share_0 (c : Dev nD) : (dat V c).share 0 = fullShare := by
  unfold Dat.share; split
  · next h => exact absurd h (by decide)
  · rfl
theorem share_1 (c : Dev nD) : (dat V c).share 1 = fullShare.left := by
  unfold Dat.share; split
  · next h => exact absurd h (by decide)
  · rfl
theorem share_2 (c : Dev nD) : (dat V c).share 2 = fullShare.right := by
  unfold Dat.share; split
  · next h => exact absurd h (by decide)
  · rfl
theorem share_3 (c : Dev nD) : (dat V c).share 3 = fullShare := by
  unfold Dat.share; split
  · next h => exact absurd h (by decide)
  · rfl
theorem share_4 (c : Dev nD) : (dat V c).share 4 = fullShare := by
  unfold Dat.share; split
  · rfl
  · next h => exact absurd rfl h

/-- The five windows' arrays, one by one, each at the share its window holds. -/
theorem arrays_list (c : Dev nD) (G : (w : Fin cfg0.W) → Buf (Elt F) ((cfg0.win w).arr.view.loc (c : Thread nD τ))) :
    ((dat V c).arrays G : sProp 𝕄)
      = iprop((((c : Thread nD τ).loc main_v1) ↦{fullShare} G 0) ∗ (((c : Thread nD τ).loc main_v2) ↦{fullShare.left} G 1) ∗ (((c : Thread nD τ).loc main_v2) ↦{fullShare.right} G 2)
          ∗ (((c : Thread nD τ).loc main_v3) ↦{fullShare} G 3) ∗ (((c : Thread nD τ).loc main_v4) ↦{fullShare} G 4)) := by
  unfold Dat.arrays
  rw [bigSep_W0, share_0 V c, share_1 V c, share_2 V c, share_3 V c, share_4 V c,
    arr_pt0 c, arr_pt1 c, arr_pt2 c, arr_pt3 c, arr_pt4 c]

end Arrays

end Cert.KernelIdeal.Hand

end
-- ==== Proof.FrameIdeal.EntryExit.lean ====
/-
  Entering and leaving the region. On entry the buffer of the fused weights, whole at the full share, is split into
  the two halves of that share for the gate window and the up window. On exit the halves are joined again: both
  windows only read, so both still hold the contents the region found. The result's array leaves at what the
  write-backs folded into it; every other buffer leaves as it entered.
-/
import proofs.«122866_j90031104459227_2_alg».proof.Proof.FrameIdeal.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY: the core's unscoped buffers at the region-entry contents are the windows' arrays at those contents, each
    at its window's share, and the rest. -/
theorem entry_arrays (c : Dev nD) :
    (unscopedBufs (Ix := Unit) (Name := ℕ) (U := UR sig nD τ) (Lvl := ℕ) c (V c) : sProp 𝕄)
      ⊢ iprop((dat V c).arrays (dat V c).A ∗ Pipeline.unscopedRest spec0 c (V c)) := by
  rw [unscoped_split c (V c), arrBufs_list c (V c), arrays_list V c]
  iintro ⟨⟨H1, H2, H3, H4⟩, Hr⟩
  ihave H2' := (pointsTo_share (PosShare.mem_left_op_right fullShare)).1 $$ H2
  icases H2' with ⟨H2l, H2r⟩
  isplitr [Hr]
  · isplitl [H1]; · iexact H1
    isplitl [H2l]; · iexact H2l
    isplitl [H2r]; · iexact H2r
    isplitl [H3]; · iexact H3
    iexact H4
  iexact Hr

/-- EXIT: the windows' arrays as the pipeline leaves them and the rest are the core's unscoped buffers at any
    contents that agree with the entry contents everywhere but at the result, and hold there what the write-backs
    folded. An input window's array ends as it began, so the two halves of the fused weights join. -/
theorem exit_arrays (c : Dev nD) (V' : (b : Ref sig .tc) → Buf (Elt F) ((c : Thread nD τ).loc b))
    (h1 : V' main_v1 = V c main_v1) (h2 : V' main_v2 = V c main_v2) (h3 : V' main_v3 = V c main_v3)
    (h4 : V' main_v4 = (dat V c).arrAt 4 cfg0.N)
    (hrest : ∀ b, b ∉ Finset.univ.image (Pipeline.arrRef spec0) → V' b = V c b) :
    iprop((dat V c).arrays ((dat V c).arrAt · cfg0.N) ∗ Pipeline.unscopedRest spec0 c (V c))
      ⊢ (unscopedBufs (Ix := Unit) (Name := ℕ) (U := UR sig nD τ) (Lvl := ℕ) c V' : sProp 𝕄) := by
  have e0 : (dat V c).arrAt 0 cfg0.N = V c main_v1 := ((dat V c).arrAt_in 0 rfl _).trans (A_eq V c 0)
  have e1 : (dat V c).arrAt 1 cfg0.N = V c main_v2 := ((dat V c).arrAt_in 1 rfl _).trans (A_eq V c 1)
  have e2 : (dat V c).arrAt 2 cfg0.N = V c main_v2 := ((dat V c).arrAt_in 2 rfl _).trans (A_eq V c 2)
  have e3 : (dat V c).arrAt 3 cfg0.N = V c main_v3 := ((dat V c).arrAt_in 3 rfl _).trans (A_eq V c 3)
  have hr : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by rw [hrest b (Finset.mem_sdiff.mp hb).2]
  rw [unscoped_split c V', hr, arrBufs_list c V', arrays_list V c, h1, h2, h3, h4, e0, e1, e2, e3]
  iintro ⟨⟨H1, H2l, H2r, H3, H4⟩, Hr⟩
  isplitr [Hr]
  · isplitl [H1]; · iexact H1
    isplitl [H2l H2r]
    · iapply (pointsTo_share (PosShare.mem_left_op_right fullShare)).2
      isplitl [H2l]; · iexact H2l
      iexact H2r
    isplitl [H3]; · iexact H3
    iexact H4
  iexact Hr

end Cert.KernelIdeal.Hand

end
-- ==== Proof.FrameIdeal.Run.lean ====
/-
  The whole program as three segments: the host operations before the region (the three arguments rounded to
  bf16, the tokens regrouped per expert), the region, and the host operation after it (the result regrouped as one
  token matrix). The buffers' contents are followed through the segments: as launched; after the first host
  operations; after the region, where only the result's array has changed; after the last host operation.
  Every weakly fair execution terminates with every unscoped buffer at the last of these.
-/
import proofs.«122866_j90031104459227_2_alg».proof.Proof.FrameIdeal.EntryExit
import Idealize.ShloMosaic.Lib.Pipeline.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the result's array at what the write-backs folded, every other buffer as entered. -/
def W2 (c : Dev nD) : Valuation τ sig (Elt F) :=
  Function.update (W1 m ρ c) (Proc.devRef .tc main_v4) ((dat (V1 m ρ) c).arrAt 4 cfg0.N)
theorem W2_result (c : Dev nD) : W2 m ρ c (Proc.devRef .tc main_v4) = (dat (V1 m ρ) c).arrAt 4 cfg0.N := by
  unfold W2; exact Function.update_self ..
theorem W2_of_ne (c : Dev nD) (b : Ref sig .tc) (hb : b ≠ main_v4) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b
/-- After the host operation that follows the region. -/
abbrev W3 : Dev nD → Valuation τ sig (Elt F) := fun c => StableHlo.after hostOps1 (W2 m ρ c)

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
  | ⟨_ + 1, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE REGION over the thread state: entered from every unscoped buffer at the contents after the first host
    operations, left with the result's array at what the write-backs folded. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_arrays (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_arrays (V1 m ρ) c (V2 m ρ c) (W2_of_ne m ρ c main_v1 (by decide)) (W2_of_ne m ρ c main_v2 (by decide))
      (W2_of_ne m ρ c main_v3 (by decide)) (W2_result m ρ c)
      (fun b hb => W2_of_ne m ρ c b fun e => hb (Finset.mem_image.mpr ⟨4, Finset.mem_univ _, e.symm⟩))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.FrameIdeal.Frame.lean ====
/-
  The frame: the program runs to the end, nothing faults, and the three argument arrays end as launched. An
  argument's buffer is written by no host operation, and the region changes only the result's array, so its
  contents at the last boundary are the launch memory's.
-/
import proofs.«122866_j90031104459227_2_alg».proof.Proof.FrameIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.HostReshapes.lean ====
/-
  The host operations around the kernel, read at one element on the extended reals.

  Before the kernel the tokens are narrowed to the 16-bit format and reshaped from `[16384, 4096]` to `[8, 2048, 4096]`,
  and the two weights are narrowed; after it the `[8, 2048, 4096]` result is reshaped back to `[16384, 4096]`. On the
  extended reals a change of float format is the identity, and the two reshapes are the row-major correspondence
  `(e, r) ↔ e * 2048 + r`. So a result that is the specification's `out` expert by expert reshapes to the specification.
-/
import proofs.«122866_j90031104459227_2_alg».proof.Proof.Gen.KernelIdeal
import proofs.«122866_j90031104459227_2_alg».proof.Proof.SwigluSpec
import Idealize.ShloMosaic.Lib.Pipeline.Value
import Idealize.ShloMosaic.Lib.ValueIdx

noncomputable section

namespace Cert.SwigluExperts

open Cert.KernelIdeal Cert.KernelIdeal.Gen Idealize.ShloMosaic Idealize.ShloMosaic.ValueIdx

/-- The narrowed, reshaped tokens at `(e, r, k)`: the token array at row `e * 2048 + r`. -/
theorem tokens_reshaped_apply (x : FVec Ideal S16384x4096 .f32) (hb : FTy.bits .bf16 < FTy.bits .f32)
    (hc : S16384x4096.ShapeCasts S8x2048x4096) (e : Fin 8) (r : Fin 2048) (k : Fin 4096) :
    shapeCast S8x2048x4096 (truncf .bf16 x hb) hc (ix3 e r k) = x (ix2 (tokenRow e r) k) := by
  refine (shapeCast_apply (truncf .bf16 x hb) hc (ix3 e r k) (ix2 (tokenRow e r) k) ?_).trans rfl
  rw [Shape.rowMajor_val_two, Shape.rowMajor_val_three]
  rfl

/-- The narrowed fused weight is the fused weight. -/
theorem gate_up_narrowed_apply (gu : FVec Ideal S8x4096x8192 .f32) (hb : FTy.bits .bf16 < FTy.bits .f32) (i : S8x4096x8192.Idx) :
    truncf .bf16 gu hb i = gu i := rfl

/-- The narrowed down weight is the down weight. -/
theorem down_narrowed_apply (dn : FVec Ideal S8x4096x4096 .f32) (hb : FTy.bits .bf16 < FTy.bits .f32) (i : S8x4096x4096.Idx) :
    truncf .bf16 dn hb i = dn i := rfl

/-- The result reshaped to `[16384, 4096]` at row `R`: the `[8, 2048, 4096]` array at expert `R / 2048`, row `R % 2048`. -/
theorem result_reshaped_apply (R : FVec Ideal S8x2048x4096 .f32) (hc : S8x2048x4096.ShapeCasts S16384x4096) (i : S16384x4096.Idx) :
    shapeCast S16384x4096 R hc i
      = R (ix3 (⟨(i 0).val / 2048, by have := idx2_lt0 i; omega⟩ : Fin 8) (⟨(i 0).val % 2048, by omega⟩ : Fin 2048)
          (⟨(i 1).val, idx2_lt1 i⟩ : Fin 4096)) := by
  refine shapeCast_apply R hc i _ ?_
  rw [Shape.rowMajor_val_three, Shape.rowMajor_val_two]
  have h0 : (i 0).val < 16384 := idx2_lt0 i
  show ((i 0).val / 2048 * 2048 + (i 0).val % 2048) * 4096 + (i 1).val = (i 0).val * 4096 + (i 1).val
  omega

/-- A RESULT THAT IS `out` EXPERT BY EXPERT RESHAPES TO THE SPECIFICATION. -/
theorem out_reshaped_eq_swiglu (x : FVec Ideal S16384x4096 .f32) (gu : FVec Ideal S8x4096x8192 .f32)
    (dn : FVec Ideal S8x4096x4096 .f32) (hc : S8x2048x4096.ShapeCasts S16384x4096) :
    shapeCast S16384x4096 (fun j : S8x2048x4096.Idx => out x gu dn (j 0) (j 1) (j 2)) hc = swiglu x gu dn := by
  funext i
  rw [result_reshaped_apply]
  rfl

end Cert.SwigluExperts

end
-- ==== Proof.FrameIdeal.Final.lean ====
/-
  The result of the idealized kernel. The region finds the tokens regrouped per expert and the two weight arrays,
  each rounded to bf16, which at the ideal instance changes nothing. Each (expert, token tile) is written back once,
  after its last reduction step, holding the feed-forward's output rows of that tile; the thirty-two tiles cover the
  result, and the last host operation regroups it as one token matrix.
-/
import proofs.«122866_j90031104459227_2_alg».proof.Proof.FrameIdeal.Accum
import proofs.«122866_j90031104459227_2_alg».proof.Proof.FrameIdeal.Frame
import proofs.«122866_j90031104459227_2_alg».proof.Proof.HostReshapes
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.SwigluExperts Idealize.ShloMosaic.ValueIdx

variable (m : (ℓ : Loc nD τ sig) → Buf (Elt Ideal) ℓ) (ρ : Dev nD → PrngReg)

/-- The three arguments on core `c`. -/
abbrev argX (c : Dev nD) : FVec Ideal S16384x4096 .f32 := m ((c : Thread nD τ).loc main_arg0)
abbrev argGU (c : Dev nD) : FVec Ideal S8x4096x8192 .f32 := m ((c : Thread nD τ).loc main_arg1)
abbrev argDN (c : Dev nD) : FVec Ideal S8x4096x4096 .f32 := m ((c : Thread nD τ).loc main_arg2)

/-- What the region finds in the tokens' array: the token matrix rounded and regrouped per expert. -/
theorem entry_tokens (c : Dev nD) :
    V1 m ρ c (Pipeline.arrRef spec0 0)
      = shapeCast S8x2048x4096 (truncf .bf16 (argX m c) Cert.KernelIdeal.Gen.bitsLt_bf16_f32) Cert.KernelIdeal.Gen.shapeCasts_S16384x4096_S8x2048x4096 := by
  show StableHlo.after hostOps0 (W0 m ρ c) (Proc.devRef .tc main_v1) = _
  after_results <;> rfl
/-- What it finds in the fused weights' array and in the down weights' array: the arguments rounded. -/
theorem entry_gate_up (c : Dev nD) :
    V1 m ρ c (Pipeline.arrRef spec0 1) = truncf .bf16 (argGU m c) Cert.KernelIdeal.Gen.bitsLt_bf16_f32 := by
  show StableHlo.after hostOps0 (W0 m ρ c) (Proc.devRef .tc main_v2) = _
  after_results <;> rfl
theorem entry_down (c : Dev nD) :
    V1 m ρ c (Pipeline.arrRef spec0 3) = truncf .bf16 (argDN m c) Cert.KernelIdeal.Gen.bitsLt_bf16_f32 := by
  show StableHlo.after hostOps0 (W0 m ρ c) (Proc.devRef .tc main_v3) = _
  after_results <;> rfl

/-- The feed-forward's output, one expert's rows after another's. -/
abbrev resultArr (c : Dev nD) : FVec Ideal S8x2048x4096 .f32 :=
  fun j : S8x2048x4096.Idx => out (argX m c) (argGU m c) (argDN m c) (j 0) (j 1) (j 2)

/-- A write-back writes the feed-forward's output rows of its tile. -/
theorem flushed_eq (c : Dev nD) (t : Fin cfg0.N) (hf : (cfg0.win 4).flush t = true) :
    (dat (V1 m ρ) c).flushed 4 t = ((cfg0.win 4).blk t).view.read (Elt Ideal) (resultArr m c) := by
  have h15 : t.val % 16 = 15 := (flush0_4 t).mp hf
  have hN := point_lt t
  show (cfg0.win 4).cut (grid0.coords t) ((dat (V1 m ρ) c).after 4 t) = _
  rw [after_4]
  funext y
  obtain ⟨u, r, h, rfl⟩ : ∃ (u : Fin 1) (r : Fin 512) (h : Fin 4096), y = ix3 u r h := ⟨y 0, y 1, y 2, eq_ix3 y⟩
  obtain rfl : u = 0 := Subsingleton.elim _ _
  rw [result_block_apply]
  have ht : t = gridPoint (ptExpert t) (ptTokenTile t) 15 :=
    Fin.ext (by rw [gridPoint_val]; show t.val = t.val / 64 * 64 + t.val / 16 % 4 * 16 + 15; omega)
  show outsAt (V1 m ρ) c t.val t.isLt (ix3 (0 : Fin 1) r h) = out (argX m c) (argGU m c) (argDN m c) (ptExpert t) (blockRow (ptTokenTile t) r) h
  rw [outsAt_congr (V1 m ρ) c t.isLt (gridPoint (ptExpert t) (ptTokenTile t) 15).isLt (congrArg Fin.val ht)]
  exact tile_final (V1 m ρ) (argX m c) (argGU m c) (argDN m c)
    (V1 m ρ c (Pipeline.arrRef spec0 0)) (V1 m ρ c (Pipeline.arrRef spec0 1)) (V1 m ρ c (Pipeline.arrRef spec0 3)) c rfl rfl rfl rfl
    (fun e r k => by rw [entry_tokens]; exact tokens_reshaped_apply _ _ _ e r k)
    (fun i => by rw [entry_gate_up]; rfl) (fun i => by rw [entry_down]; rfl)
    (ptExpert t) (ptTokenTile t) r h

/-- So, the write-back tiles covering the result, its array ends at the feed-forward's output. -/
theorem result_final (c : Dev nD)
    (hcover : ∀ i : S8x2048x4096.Idx, ∃ t : Fin cfg0.N, (cfg0.win 4).flush t = true ∧ i ∈ ((cfg0.win 4).blk t).view.set) :
    (dat (V1 m ρ) c).arrAt 4 cfg0.N = resultArr m c :=
  (dat (V1 m ρ) c).arrAt_eq_of_cover 4 (resultArr m c) (flushed_eq m ρ c) hcover

/-- The last host operation regroups the result's array as one token matrix. -/
theorem W3_result (c : Dev nD) :
    W3 m ρ c (Proc.devRef .tc main_v5)
      = shapeCast S16384x4096 ((dat (V1 m ρ) c).arrAt 4 cfg0.N) Cert.KernelIdeal.Gen.shapeCasts_S8x2048x4096_S16384x4096 := by
  show StableHlo.after hostOps1 (W2 m ρ c) (Proc.devRef .tc main_v5) = _
  after_results
  exact congrArg (fun R => shapeCast S16384x4096 R Cert.KernelIdeal.Gen.shapeCasts_S8x2048x4096_S16384x4096) (W2_result m ρ c)

end Cert.KernelIdeal.Hand

end
-- ==== Proof.ResultCover.lean ====
/-
  The write-back blocks cover the result. The output block of expert `e` and token tile `tt` is written back at the last
  reduction step, the point `(e, tt, 15)`, to rows `tt * 512 … tt * 512 + 511` of expert `e`. Every index `(e, R, h)` of
  the `[8, 2048, 4096]` result therefore lies in the block written back at the point `(e, R / 512, 15)`.
-/
import proofs.«122866_j90031104459227_2_alg».proof.Proof.Gen.KernelIdeal.Launch
import proofs.«122866_j90031104459227_2_alg».proof.Proof.Gen.KernelIdeal.Points
import proofs.«122866_j90031104459227_2_alg».proof.Proof.BlockReads
import Idealize.ShloMosaic.Lib.Pipeline.Value

noncomputable section

namespace Cert.SwigluExperts

open Cert.KernelIdeal Cert.KernelIdeal.Gen Idealize.ShloMosaic Idealize.ShloMosaic.ValueIdx

/-- An index of the result is in point `t`'s output block iff each coordinate is in the block's range on its axis. -/
theorem mem_result_block (t : Fin cfg0.N) (i : S8x2048x4096.Idx) :
    i ∈ ((cfg0.win 4).blk t).view.set ↔ ∀ a : Fin 3, win0_4.index t a * S1x512x4096.size a ≤ (i a).val
      ∧ (i a).val < win0_4.index t a * S1x512x4096.size a + S1x512x4096.size a := by
  show i ∈ ((View.whole main_v4).slice (win0_4.rect t)).set ↔ _
  rw [View.set_slice_whole, Rect.mem_set_unit]
  exact Iff.rfl

/-- THE COVER: every index of the result is in the block some point writes back. -/
theorem result_cover (i : S8x2048x4096.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 4096 := (i 2).isLt
  have tv : (gridPoint ⟨(i 0).val, h0⟩ ⟨(i 1).val / 512, by omega⟩ ⟨15, by omega⟩).val
      = (i 0).val * 64 + (i 1).val / 512 * 16 + 15 := rfl
  refine ⟨gridPoint ⟨(i 0).val, h0⟩ ⟨(i 1).val / 512, by omega⟩ ⟨15, by omega⟩, (flush0_4 _).mpr (by rw [tv]; omega), ?_⟩
  rw [mem_result_block]
  obtain ⟨-, -, -, -, -, -, -, -, -, -, -, -, e0, e1, e2⟩ :=
    block_index (gridPoint ⟨(i 0).val, h0⟩ ⟨(i 1).val / 512, by omega⟩ ⟨15, by omega⟩)
  rw [tv] at e0 e1
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 512 ≤ (i 1).val ∧ (i 1).val < win0_4.index _ (1 : Fin 3) * 512 + 512
    omega
  | ⟨2, _⟩ =>
    show win0_4.index _ (2 : Fin 3) * 4096 ≤ (i 2).val ∧ (i 2).val < win0_4.index _ (2 : Fin 3) * 4096 + 4096
    omega

end Cert.SwigluExperts

end
-- ==== Proof.ReferenceIsSwiglu.lean ====
/-
  The reference is the specification. The reference program reshapes the tokens to `[8, 2048, 4096]`, multiplies each
  expert's tokens by its `[4096, 8192]` weight, splits the result's last axis into the gate half (columns below 4096)
  and the up half (columns from 4096), forms `up * (gate * (1 / (1 + exp (-gate))))`, multiplies by the expert's
  `[4096, 4096]` down weight and reshapes back to `[16384, 4096]`. Read index by index on the extended reals this is the
  specification's `swiglu`: `1 / (1 + exp (-t))` is `logistic t` by definition, and the two reshapes are the row-major
  correspondence `(e, r) ↔ e * 2048 + r`.
-/
import proofs.«122866_j90031104459227_2_alg».proof.Proof.Gen.ReferenceIdeal.Read
import proofs.«122866_j90031104459227_2_alg».proof.Proof.SwigluSpec
import Idealize.ShloMosaic.Lib.IdealHost

noncomputable section

open scoped BigOperators

namespace Cert.SwigluExperts

open Cert.ReferenceIdeal Cert.ReferenceIdeal.Gen Cert.ReferenceIdeal.Read Idealize.ShloMosaic Idealize.ShloMosaic.ValueIdx

variable (x0 : (⟨S16384x4096, .f32⟩ : BufTy).Contents (Elt Ideal)) (x1 : (⟨S8x4096x8192, .f32⟩ : BufTy).Contents (Elt Ideal))
  (x2 : (⟨S8x4096x4096, .f32⟩ : BufTy).Contents (Elt Ideal))

/-- The reshaped tokens at `(e, r, k)`: the token array at row `e * 2048 + r`. -/
theorem tokens_at (e : Fin 8) (r : Fin 2048) (k : Fin 4096) :
    val_main_v0 (F := Ideal) x0 (ix3 e r k) = x0 (ix2 (tokenRow e r) k) := by
  rw [val_main_v0_apply]
  exact congrArg x0 (funext fun a => Fin.ext (by
    match a with
    | ⟨0, _⟩ => show ((e.val * 2048 + r.val) * 4096 + k.val) / 4096 = e.val * 2048 + r.val; omega
    | ⟨1, _⟩ => show ((e.val * 2048 + r.val) * 4096 + k.val) % 4096 = k.val; omega))

/-- The first product at `(e, r, c)`, `c` a column of the `8192`. -/
theorem gate_up_at (e : Fin 8) (r : Fin 2048) (c : Fin 8192) :
    val_main_v1 (F := Ideal) x0 x1 (ix3 e r c) = ∑ k : Fin 4096, x0 (ix2 (tokenRow e r) k) * x1 (ix3 e k c) := by
  rw [val_main_v1_apply]
  refine Finset.sum_congr rfl fun k _ => ?_
  have hl : lidx_main_v1 (ix3 e r c) k = ix3 e r k := funext fun a => match a with | ⟨0, _⟩ => rfl | ⟨1, _⟩ => rfl | ⟨2, _⟩ => rfl
  have hr : ridx_main_v1 (ix3 e r c) k = ix3 e k c := funext fun a => match a with | ⟨0, _⟩ => rfl | ⟨1, _⟩ => rfl | ⟨2, _⟩ => rfl
  rw [hl, hr, tokens_at]

/-- The gate half at `(e, r, j)`. -/
theorem gate_at (e : Fin 8) (r : Fin 2048) (j : Fin 4096) :
    val_main_v2 (F := Ideal) x0 x1 (ix3 e r j) = gate x0 x1 e r j := by
  have hi : idx_main_v2 (ix3 e r j) = ix3 e r (gateCol j) := funext fun a => match a with | ⟨0, _⟩ => rfl | ⟨1, _⟩ => rfl | ⟨2, _⟩ => rfl
  rw [val_main_v2_apply, hi, gate_up_at]
  rfl

/-- The up half at `(e, r, j)`. -/
theorem up_at (e : Fin 8) (r : Fin 2048) (j : Fin 4096) :
    val_main_v3 (F := Ideal) x0 x1 (ix3 e r j) = up x0 x1 e r j := by
  have hi : idx_main_v3 (ix3 e r j) = ix3 e r (upCol j) := funext fun a => match a with | ⟨0, _⟩ => rfl | ⟨1, _⟩ => rfl | ⟨2, _⟩ => rfl
  rw [val_main_v3_apply, hi, gate_up_at]
  rfl

/-- The activation at `(e, r, j)`: the reference's `1 / (1 + exp (-t))` is `logistic t`. -/
theorem act_at (e : Fin 8) (r : Fin 2048) (j : Fin 4096) :
    val_main_v5 (F := Ideal) x0 x1 (ix3 e r j) = act x0 x1 e r j := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, up_at, gate_at]
  simp only [Ideal.mulf_def, Ideal.hostDivf_def, Ideal.addf_def, Ideal.hostUnary_exp_def, Ideal.hostNegf_def,
    Ideal.negf_def, Ideal.ofBits_def, Ideal.ofBits_one_f32]
  rfl

/-- THE REFERENCE IS THE SPECIFICATION. -/
theorem reference_eq_swiglu : val_main_v7 (F := Ideal) x0 x1 x2 = swiglu x0 x1 x2 := by
  funext i
  have h0 : (i 0).val < 16384 := idx2_lt0 i
  have h1 : (i 1).val < 4096 := idx2_lt1 i
  have hidx : idx_main_v7 i = ix3 (⟨(i 0).val / 2048, by omega⟩ : Fin 8) (⟨(i 0).val % 2048, by omega⟩ : Fin 2048)
      (⟨(i 1).val, h1⟩ : Fin 4096) := funext fun a => Fin.ext (by
    match a with
    | ⟨0, _⟩ => show ((i 0).val * 4096 + (i 1).val) / 8388608 = (i 0).val / 2048; omega
    | ⟨1, _⟩ => show ((i 0).val * 4096 + (i 1).val) / 4096 % 2048 = (i 0).val % 2048; omega
    | ⟨2, _⟩ => show ((i 0).val * 4096 + (i 1).val) % 4096 = (i 1).val; omega)
  rw [val_main_v7_apply, hidx, val_main_v6_apply]
  show _ = out x0 x1 x2 _ _ _
  unfold out
  refine Finset.sum_congr rfl fun j _ => ?_
  have hl : lidx_main_v6 (ix3 (⟨(i 0).val / 2048, by omega⟩ : Fin 8) (⟨(i 0).val % 2048, by omega⟩ : Fin 2048)
      (⟨(i 1).val, h1⟩ : Fin 4096)) j = ix3 (⟨(i 0).val / 2048, by omega⟩ : Fin 8) (⟨(i 0).val % 2048, by omega⟩ : Fin 2048) j :=
    funext fun a => match a with | ⟨0, _⟩ => rfl | ⟨1, _⟩ => rfl | ⟨2, _⟩ => rfl
  have hr : ridx_main_v6 (ix3 (⟨(i 0).val / 2048, by omega⟩ : Fin 8) (⟨(i 0).val % 2048, by omega⟩ : Fin 2048)
      (⟨(i 1).val, h1⟩ : Fin 4096)) j = ix3 (⟨(i 0).val / 2048, by omega⟩ : Fin 8) j (⟨(i 1).val, h1⟩ : Fin 4096) :=
    funext fun a => match a with | ⟨0, _⟩ => rfl | ⟨1, _⟩ => rfl | ⟨2, _⟩ => rfl
  rw [hl, hr, act_at]

end Cert.SwigluExperts

end
-- ==== Proof.Claims.lean ====
/-
  The five claims. Both kernel programs run to the end with their arguments unchanged (the frame, at the word-level
  instance and at the ideal one, by one proof read at both); the reference's run is its operations' composed term;
  the idealization rewrote no operation; and at the ideal instance the kernel's result and the reference's are one
  function of the arguments: for each expert, (up * (gate * logistic gate)) times the down weights, where gate and
  up are the two column halves of the tokens times the fused weights. The kernel sums the inner index in sixteen
  tiles of 256, the reference all at once; addition of extended reals is commutative and associative, so the two
  sums agree, with no finiteness needed.
-/
import proofs.«122866_j90031104459227_2_alg».proof.Defs
import proofs.«122866_j90031104459227_2_alg».proof.Proof.Gen.Kernel
import proofs.«122866_j90031104459227_2_alg».proof.Proof.Gen.KernelIdeal
import proofs.«122866_j90031104459227_2_alg».proof.Proof.Gen.ReferenceIdeal
import proofs.«122866_j90031104459227_2_alg».proof.Proof.Gen.Pre_finite_inputs
import proofs.«122866_j90031104459227_2_alg».proof.Proof.FrameBits.Frame
import proofs.«122866_j90031104459227_2_alg».proof.Proof.FrameIdeal.Final
import proofs.«122866_j90031104459227_2_alg».proof.Proof.ResultCover
import proofs.«122866_j90031104459227_2_alg».proof.Proof.ReferenceIsSwiglu

noncomputable section

namespace Cert.Proof.Claims

open Idealize.ShloMosaic Idealize.ShloMosaic.TcCoe Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand Cert.SwigluExperts in
theorem algebraic : Cert.algebraic_KernelIdeal_ReferenceIdeal := by
  intro m ρ m' ρ' _ hagree
  refine ⟨fun c => swiglu (argX m c) (argGU m c) (argDN m c), ?_, ?_⟩
  · refine (θ_run Cert.KernelIdeal.defs _ _).mono (fun _ h c => ⟨?_, ?_, ?_, ?_⟩) (run_all (F := Ideal) m ρ)
    · refine (h c _ (mem_uc main_v5 (by decide))).trans ((W3_result m ρ c).trans ?_)
      rw [result_final m ρ c (fun i => result_cover i)]
      exact out_reshaped_eq_swiglu _ _ _ _
    · exact (h c _ (mem_uc main_arg0 (by decide))).trans (W3_main_arg0 m ρ c)
    · exact (h c _ (mem_uc main_arg1 (by decide))).trans (W3_main_arg1 m ρ c)
    · exact (h c _ (mem_uc main_arg2 (by decide))).trans (W3_main_arg2 m ρ c)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v7_eq _ _ _).trans ((reference_eq_swiglu _ _ _).trans ?_))
    rw [(hagree c).1, (hagree c).2.1, (hagree c).2.2]

end Cert.Proof.Claims

end
-- ==== Proof.lean ====
/-
  The certificate's claim: the witnesses of the side conditions the three printed programs and the precondition
  state, and under them the five conjuncts proved in Proof/Claims.lean — the two kernel programs' frames, the
  reference's frame, that the idealization changed nothing, and that the idealized kernel and the idealized
  reference compute one function of their arguments over the extended reals.
-/
import proofs.«122866_j90031104459227_2_alg».proof.Defs
import proofs.«122866_j90031104459227_2_alg».proof.Proof.Gen.Kernel
import proofs.«122866_j90031104459227_2_alg».proof.Proof.Gen.KernelIdeal
import proofs.«122866_j90031104459227_2_alg».proof.Proof.Gen.ReferenceIdeal
import proofs.«122866_j90031104459227_2_alg».proof.Proof.Gen.Pre_finite_inputs
import proofs.«122866_j90031104459227_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
